-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x64 : Shape := ⟨3, ![16384, 32, 64]⟩
abbrev S64x64 : Shape := ⟨2, ![64, 64]⟩
abbrev S64 : Shape := ⟨1, ![64]⟩
abbrev S2x128x64 : Shape := ⟨3, ![2, 128, 64]⟩
abbrev S2x64 : Shape := ⟨2, ![2, 64]⟩
abbrev S64x16 : Shape := ⟨2, ![64, 16]⟩
abbrev S16 : Shape := ⟨1, ![16]⟩
abbrev S16384x32x16 : Shape := ⟨3, ![16384, 32, 16]⟩
abbrev S_ : Shape := ⟨0, ![]⟩

class Facts : Prop where
  bcast_S_S16384x32x64 : S_.BroadcastsInDim S16384x32x64 (![] : Fin 0 → Fin S16384x32x64.rank)
  reducesTo_S16384x32x64_S_d0_1_2 : S16384x32x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S64x16 .f32) (main_arg8 : FVec F S16 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S2x64 .f32) (main_arg5 : FVec F S64x64 .f32) (main_arg6 : FVec F S64 .f32) (main_arg7 : FVec F S64x16 .f32) (main_arg8 : FVec F S16 .f32) (main_v13 : IVec S_ 1) (main_v16 : IVec S2x128x64 1) : IVec S_ 1 :=
  let main_c_5 : IVec S_ 1 := constantI S_ 1 1#1
  let main_v17 : IVec S_ 1 := (fun x v => Host.reduce IntOp.andi x v reducesTo_S2x128x64_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S16384x32x64 .f32) (main_arg1 : FVec F S64x64 .f32) (main_arg2 : FVec F S64 .f32) (main_arg3 : FVec F S2x128x64 .f32) (main_arg4 : FVec F S2x64 .f32) (main_arg5 : FVec F S64x64 .f32) (main_arg6 : FVec F S64 .f32) (main_arg7 : FVec F S64x16 .f32) (main_arg8 : FVec F S16 .f32) (main_arg9 : IVec S16384x32x16 32) : IVec S_ 1 :=
  let main_v0 : FVec F S16384x32x64 .f32 := Host.absf main_arg0
  let main_cst : FVec F S_ .f32 := constant S_ .f32 0x7F800000#32
  let main_v1 : FVec F S16384x32x64 .f32 := broadcastInDim S16384x32x64 ![] bcast_S_S16384x32x64 main_cst
  let main_v2 : IVec S16384x32x64 1 := cmpf .olt main_v0 main_v1
  let main_c : IVec S_ 1 := constantI S_ 1 1#1
  let main_v3 : IVec S_ 1 := (fun x v => Host.reduce IntOp.andi x v reducesTo_S16384x32x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x128x64 .f32 := Host.absf main_arg3
  let main_cst_4 : FVec F S_ .f32 := constant S_ .f32 0x7F800000#32
  let main_v15 : FVec F S2x128x64 .f32 := broadcastInDim S2x128x64 ![] bcast_S_S2x128x64 main_cst_4
  let main_v16 : IVec S2x128x64 1 := cmpf .olt main_v14 main_v15
  fn_part1 (F := F) main_arg4 main_arg5 main_arg6 main_arg7 main_arg8 main_v13 main_v16
-- ==== Kernel.lean ====
abbrev S16384x32x64 : Shape := ⟨3, ![16384, 32, 64]⟩
abbrev S64x64 : Shape := ⟨2, ![64, 64]⟩
abbrev S64 : Shape := ⟨1, ![64]⟩
abbrev S2x128x64 : Shape := ⟨3, ![2, 128, 64]⟩
abbrev S2x64 : Shape := ⟨2, ![2, 64]⟩
abbrev S64x16 : Shape := ⟨2, ![64, 16]⟩
abbrev S16 : Shape := ⟨1, ![16]⟩
abbrev S16384x32x16 : Shape := ⟨3, ![16384, 32, 16]⟩
abbrev S512x32x64 : Shape := ⟨3, ![512, 32, 64]⟩
abbrev S512x32x16 : Shape := ⟨3, ![512, 32, 16]⟩
abbrev S16384x64 : Shape := ⟨2, ![16384, 64]⟩
abbrev S1x64 : Shape := ⟨2, ![1, 64]⟩
abbrev S512x64 : Shape := ⟨2, ![512, 64]⟩
abbrev S512x1x64 : Shape := ⟨3, ![512, 1, 64]⟩
abbrev S512x32x128 : Shape := ⟨3, ![512, 32, 128]⟩
abbrev S16384x128 : Shape := ⟨2, ![16384, 128]⟩
abbrev S1x128x64 : Shape := ⟨3, ![1, 128, 64]⟩
abbrev S128x64 : Shape := ⟨2, ![128, 64]⟩
abbrev S16384x16 : Shape := ⟨2, ![16384, 16]⟩
abbrev S1x16 : Shape := ⟨2, ![1, 16]⟩

abbrev nBuf : Space → Nat
  | .hbm => 11
  | .vmem => 14
  | .smem => 0
  | _ => 0

abbrev bufTy : (tb : Table) → Fin (tcTables nBuf tb) → BufTy
  | .hbm, ⟨0, _⟩ => ⟨S16384x32x64, .f32⟩
  | .hbm, ⟨1, _⟩ => ⟨S64x64, .f32⟩
  | .hbm, ⟨2, _⟩ => ⟨S64, .f32⟩
  | .hbm, ⟨3, _⟩ => ⟨S2x128x64, .f32⟩
  | .hbm, ⟨4, _⟩ => ⟨S2x64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S16384x32x16, .i32⟩
  | .hbm, ⟨10, _⟩ => ⟨S16384x32x16, .f32⟩
  | .local _ .vmem, ⟨0, _⟩ => ⟨S512x32x64, .f32⟩
  | .local _ .vmem, ⟨1, _⟩ => ⟨S512x32x64, .f32⟩
  | .local _ .vmem, ⟨2, _⟩ => ⟨S512x32x16, .i32⟩
  | .local _ .vmem, ⟨3, _⟩ => ⟨S512x32x16, .i32⟩
  | .local _ .vmem, ⟨4, _⟩ => ⟨S64x64, .f32⟩
  | .local _ .vmem, ⟨5, _⟩ => ⟨S64, .f32⟩
  | .local _ .vmem, ⟨6, _⟩ => ⟨S2x128x64, .f32⟩
  | .local _ .vmem, ⟨7, _⟩ => ⟨S2x64, .f32⟩
  | .local _ .vmem, ⟨8, _⟩ => ⟨S64x64, .f32⟩
  | .local _ .vmem, ⟨9, _⟩ => ⟨S64, .f32⟩
  | .local _ .vmem, ⟨10, _⟩ => ⟨S64x16, .f32⟩
  | .local _ .vmem, ⟨11, _⟩ => ⟨S16, .f32⟩
  | .local _ .vmem, ⟨12, _⟩ => ⟨S512x32x16, .f32⟩
  | .local _ .vmem, ⟨13, _⟩ => ⟨S512x32x16, .f32⟩
  | _, _ => ⟨S16384x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x32x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S512x32x64_S512x32x64_0_0_0 : ∀ a, (![0, 0, 0] : Fin 3 → Nat) a + S512x32x64.size a ≤ S512x32x64.size a
  h_S512x32x64 : 0 < S512x32x64.numel
  bitsLt_bf16_f32 : FTy.bits .bf16 < FTy.bits .f32
  shapeCasts_S512x32x64_S16384x64 : S512x32x64.ShapeCasts S16384x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  shapeCasts_S16384x64_S512x32x64 : S16384x64.ShapeCasts S512x32x64
  reduces_S512x32x64_S512x64 : S512x32x64.Reduces [1] S512x64
  shapeCasts_S512x64_S512x1x64 : S512x64.ShapeCasts S512x1x64
  broadcasts_S512x1x64_S512x32x64 : S512x1x64.Broadcasts S512x32x64
  concatenates_S512x32x64_S512x32x64_S512x32x128_d2 : Shape.Concatenates [S512x32x64, S512x32x64] S512x32x128 2
  shapeCasts_S512x32x128_S16384x128 : S512x32x128.ShapeCasts S16384x128
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x64_S1x64_0_0 : ∀ a, (![0, 0] : Fin 2 → Nat) a + S1x64.size a ≤ S2x64.size a
  h_S1x64 : 0 < S1x64.numel
  shapeCasts_S1x64_S64 : S1x64.ShapeCasts S64
  inb_S2x128x64_S1x128x64_1_0_0 : ∀ a, (![1, 0, 0] : Fin 3 → Nat) a + S1x128x64.size a ≤ S2x128x64.size a
  inb_S2x64_S1x64_1_0 : ∀ a, (![1, 0] : Fin 2 → Nat) a + S1x64.size a ≤ S2x64.size a
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S16384x16 : S1x16.Broadcasts S16384x16
  shapeCasts_S16384x16_S512x32x16 : S16384x16.ShapeCasts S512x32x16
  inb_S512x32x16_S512x32x16_0_0_0 : ∀ a, (![0, 0, 0] : Fin 3 → Nat) a + S512x32x16.size a ≤ S512x32x16.size a
  h_S512x32x16 : 0 < S512x32x16.numel
  dot_S16384x64_S64x64_S16384x64_1_0_0_1_n_n_wf : DotDims.WF S16384x64 S64x64 S16384x64 [1] [0] [0] [1] [] []
  dot_S16384x128_S128x64_S16384x64_1_0_0_1_n_n_wf : DotDims.WF S16384x128 S128x64 S16384x64 [1] [0] [0] [1] [] []
  dot_S16384x64_S64x16_S16384x16_1_0_0_1_n_n_wf : DotDims.WF S16384x64 S64x16 S16384x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x64.size a ≤ S16384x32x64.size a
  hwx0_0 : ∀ i : grid0.Coords, EltTy.bits .f32 = 32 ∨ (Rect.block (s := S16384x32x64) S512x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32x16.size a ≤ S16384x32x16.size a
  hwx0_1 : ∀ i : grid0.Coords, EltTy.bits .i32 = 32 ∨ (Rect.block (s := S16384x32x16) S512x32x16.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128x64.size a ≤ S2x128x64.size a
  hwx0_4 : ∀ i : grid0.Coords, EltTy.bits .f32 = 32 ∨ (Rect.block (s := S2x128x64) S2x128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x16.size a ≤ S64x16.size a
  hwx0_8 : ∀ i : grid0.Coords, EltTy.bits .f32 = 32 ∨ (Rect.block (s := S64x16) S64x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16.size a ≤ S16.size a
  hwx0_9 : ∀ i : grid0.Coords, EltTy.bits .f32 = 32 ∨ (Rect.block (s := S16) S16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x32x16.size a ≤ S16384x32x16.size a
  hwx0_10 : ∀ i : grid0.Coords, EltTy.bits .f32 = 32 ∨ (Rect.block (s := S16384x32x16) S512x32x16.size (cc0_transform_10 i) (hinb0_10 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf

abbrev win0_0 : Pipeline.Window sig grid0 :=
  Pipeline.Window.ofSpec (Memref.whole main_arg0) S512x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S512x32x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2x128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S512x32x16.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x32x64 : Shape := ⟨3, ![16384, 32, 64]⟩
abbrev S64x64 : Shape := ⟨2, ![64, 64]⟩
abbrev S64 : Shape := ⟨1, ![64]⟩
abbrev S2x128x64 : Shape := ⟨3, ![2, 128, 64]⟩
abbrev S2x64 : Shape := ⟨2, ![2, 64]⟩
abbrev S64x16 : Shape := ⟨2, ![64, 16]⟩
abbrev S16 : Shape := ⟨1, ![16]⟩
abbrev S16384x32x16 : Shape := ⟨3, ![16384, 32, 16]⟩
abbrev S1x1x64 : Shape := ⟨3, ![1, 1, 64]⟩
abbrev S_ : Shape := ⟨0, ![]⟩
abbrev S16384x64 : Shape := ⟨2, ![16384, 64]⟩
abbrev S16384x1x64 : Shape := ⟨3, ![16384, 1, 64]⟩
abbrev S16384x32x128 : Shape := ⟨3, ![16384, 32, 128]⟩
abbrev S1x128x64 : Shape := ⟨3, ![1, 128, 64]⟩
abbrev S128x64 : Shape := ⟨2, ![128, 64]⟩
abbrev S1x64 : Shape := ⟨2, ![1, 64]⟩
abbrev S1x1x16 : Shape := ⟨3, ![1, 1, 16]⟩

abbrev nBuf : Space → Nat
  | .hbm => 74
  | .vmem => 0
  | .smem => 0
  | _ => 0

abbrev bufTy : (tb : Table) → Fin (tcTables nBuf tb) → BufTy
  | .hbm, ⟨0, _⟩ => ⟨S16384x32x64, .f32⟩
  | .hbm, ⟨1, _⟩ => ⟨S64x64, .f32⟩
  | .hbm, ⟨2, _⟩ => ⟨S64, .f32⟩
  | .hbm, ⟨3, _⟩ => ⟨S2x128x64, .f32⟩
  | .hbm, ⟨4, _⟩ => ⟨S2x64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S16384x32x16, .i32⟩
  | .hbm, ⟨10, _⟩ => ⟨S16384x32x64, .f32⟩
  | .hbm, ⟨11, _⟩ => ⟨S1x1x64, .f32⟩
  | .hbm, ⟨12, _⟩ => ⟨S16384x32x64, .f32⟩
  | .hbm, ⟨13, _⟩ => ⟨S16384x32x64, .f32⟩
  | .hbm, ⟨14, _⟩ => ⟨S_, .f32⟩
  | .hbm, ⟨15, _⟩ => ⟨S16384x32x64, .f32⟩
  | .hbm, ⟨16, _⟩ => ⟨S16384x32x64, .f32⟩
  | .hbm, ⟨17, _⟩ => ⟨S_, .f32⟩
  | .hbm, ⟨18, _⟩ => ⟨S16384x64, .f32⟩
  | .hbm, ⟨19, _⟩ => ⟨S16384x1x64, .f32⟩
  | .hbm, ⟨20, _⟩ => ⟨S16384x32x64, .f32⟩
  | .hbm, ⟨21, _⟩ => ⟨S16384x32x64, .f32⟩
  | .hbm, ⟨22, _⟩ => ⟨S_, .f32⟩
  | .hbm, ⟨23, _⟩ => ⟨S16384x32x64, .f32⟩
  | .hbm, ⟨24, _⟩ => ⟨S16384x32x64, .f32⟩
  | .hbm, ⟨25, _⟩ => ⟨S16384x32x128, .f32⟩
  | .hbm, ⟨26, _⟩ => ⟨S1x128x64, .f32⟩
  | .hbm, ⟨27, _⟩ => ⟨S128x64, .f32⟩
  | .hbm, ⟨28, _⟩ => ⟨S16384x32x64, .f32⟩
  | .hbm, ⟨29, _⟩ => ⟨S1x64, .f32⟩
  | .hbm, ⟨30, _⟩ => ⟨S64, .f32⟩
  | .hbm, ⟨31, _⟩ => ⟨S1x1x64, .f32⟩
  | .hbm, ⟨32, _⟩ => ⟨S16384x32x64, .f32⟩
  | .hbm, ⟨33, _⟩ => ⟨S16384x32x64, .f32⟩
  | .hbm, ⟨34, _⟩ => ⟨S_, .f32⟩
  | .hbm, ⟨35, _⟩ => ⟨S16384x32x64, .f32⟩
  | .hbm, ⟨36, _⟩ => ⟨S16384x32x64, .f32⟩
  | .hbm, ⟨37, _⟩ => ⟨S_, .f32⟩
  | .hbm, ⟨38, _⟩ => ⟨S16384x64, .f32⟩
  | .hbm, ⟨39, _⟩ => ⟨S16384x1x64, .f32⟩
  | .hbm, ⟨40, _⟩ => ⟨S16384x32x64, .f32⟩
  | .hbm, ⟨41, _⟩ => ⟨S16384x32x64, .f32⟩
  | .hbm, ⟨42, _⟩ => ⟨S_, .f32⟩
  | .hbm, ⟨43, _⟩ => ⟨S16384x32x64, .f32⟩
  | .hbm, ⟨44, _⟩ => ⟨S16384x32x64, .f32⟩
  | .hbm, ⟨45, _⟩ => ⟨S16384x32x128, .f32⟩
  | .hbm, ⟨46, _⟩ => ⟨S1x128x64, .f32⟩
  | .hbm, ⟨47, _⟩ => ⟨S128x64, .f32⟩
  | .hbm, ⟨48, _⟩ => ⟨S16384x32x64, .f32⟩
  | .hbm, ⟨49, _⟩ => ⟨S1x64, .f32⟩
  | .hbm, ⟨50, _⟩ => ⟨S64, .f32⟩
  | .hbm, ⟨51, _⟩ => ⟨S1x1x64, .f32⟩
  | .hbm, ⟨52, _⟩ => ⟨S16384x32x64, .f32⟩
  | .hbm, ⟨53, _⟩ => ⟨S16384x32x64, .f32⟩
  | .hbm, ⟨54, _⟩ => ⟨S_, .f32⟩
  | .hbm, ⟨55, _⟩ => ⟨S16384x32x64, .f32⟩
  | .hbm, ⟨56, _⟩ => ⟨S16384x32x64, .f32⟩
  | .hbm, ⟨57, _⟩ => ⟨S16384x32x64, .f32⟩
  | .hbm, ⟨58, _⟩ => ⟨S1x1x64, .f32⟩
  | .hbm, ⟨59, _⟩ => ⟨S16384x32x64, .f32⟩
  | .hbm, ⟨60, _⟩ => ⟨S16384x32x64, .f32⟩
  | .hbm, ⟨61, _⟩ => ⟨S_, .f32⟩
  | .hbm, ⟨62, _⟩ => ⟨S16384x32x64, .f32⟩
  | .hbm, ⟨63, _⟩ => ⟨S16384x32x64, .f32⟩
  | .hbm, ⟨64, _⟩ => ⟨S16384x32x16, .f32⟩
  | .hbm, ⟨65, _⟩ => ⟨S1x1x16, .f32⟩
  | .hbm, ⟨66, _⟩ => ⟨S16384x32x16, .f32⟩
  | .hbm, ⟨67, _⟩ => ⟨S16384x32x16, .f32⟩
  | .hbm, ⟨68, _⟩ => ⟨S_, .i32⟩
  | .hbm, ⟨69, _⟩ => ⟨S16384x32x16, .i32⟩
  | .hbm, ⟨70, _⟩ => ⟨S16384x32x16, .i1⟩
  | .hbm, ⟨71, _⟩ => ⟨S_, .f32⟩
  | .hbm, ⟨72, _⟩ => ⟨S16384x32x16, .f32⟩
  | .hbm, ⟨73, _⟩ => ⟨S16384x32x16, .f32⟩
  | _, _ => ⟨S16384x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call2_cst : Ref sig .tc := ⟨.hbm, 54, rfl⟩
abbrev main_call2_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call3_cst : Ref sig .tc := ⟨.hbm, 61, rfl⟩
abbrev main_call3_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c : Ref sig .tc := ⟨.hbm, 68, rfl⟩
abbrev main_v46 : Ref sig .tc := ⟨.hbm, 69, rfl⟩
abbrev main_v47 : Ref sig .tc := ⟨.hbm, 70, rfl⟩
abbrev main_cst_3 : Ref sig .tc := ⟨.hbm, 71, rfl⟩
abbrev main_call4_v0 : Ref sig .tc := ⟨.hbm, 72, rfl⟩
abbrev main_v48 : Ref sig .tc := ⟨.hbm, 73, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S16384x32x64_0_1_2 : S1x1x64.BroadcastsInDim S16384x32x64 (![0, 1, 2] : Fin 3 → Fin S16384x32x64.rank)
  bcast_S_S16384x32x64 : S_.BroadcastsInDim S16384x32x64 (![] : Fin 0 → Fin S16384x32x64.rank)
  reducesTo_S16384x32x64_S16384x64_d1 : S16384x32x64.ReducesTo [1] S16384x64
  h_S_ : 0 < S_.numel
  bcast_S16384x64_S16384x1x64_0_2 : S16384x64.BroadcastsInDim S16384x1x64 (![0, 2] : Fin 2 → Fin S16384x1x64.rank)
  bcast_S16384x1x64_S16384x32x64_0_1_2 : S16384x1x64.BroadcastsInDim S16384x32x64 (![0, 1, 2] : Fin 3 → Fin S16384x32x64.rank)
  concatenates_S16384x32x64_S16384x32x64_S16384x32x128_d2 : Shape.Concatenates [S16384x32x64, S16384x32x64] S16384x32x128 2
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  slices_S2x128x64_S1x128x64_1_0_0 : S2x128x64.Slices ![1, 0, 0] S1x128x64
  slices_S2x64_S1x64_1_0 : S2x64.Slices ![1, 0] S1x64
  bcast_S16_S1x1x16_2 : S16.BroadcastsInDim S1x1x16 (![2] : Fin 1 → Fin S1x1x16.rank)
  bcast_S1x1x16_S16384x32x16_0_1_2 : S1x1x16.BroadcastsInDim S16384x32x16 (![0, 1, 2] : Fin 3 → Fin S16384x32x16.rank)
  bcast_S_S16384x32x16 : S_.BroadcastsInDim S16384x32x16 (![] : Fin 0 → Fin S16384x32x16.rank)
  dot_S16384x32x64_S64x64_S16384x32x64_2_0_01_1_n_n_wf : DotDims.WF S16384x32x64 S64x64 S16384x32x64 [2] [0] [0, 1] [1] [] []
  dot_S16384x32x128_S128x64_S16384x32x64_2_0_01_1_n_n_wf : DotDims.WF S16384x32x128 S128x64 S16384x32x64 [2] [0] [0, 1] [1] [] []
  dot_S16384x32x64_S64x16_S16384x32x16_2_0_01_1_n_n_wf : DotDims.WF S16384x32x64 S64x16 S16384x32x16 [2] [0] [0, 1] [1] [] []

variable [Facts₀]

def dot_S16384x32x64_S64x64_S16384x32x64_2_0_01_1_n_n : DotDims S16384x32x64 S64x64 S16384x32x64 where
  lhsContracting := [2]
  rhsContracting := [0]
  lhsNonContracting := [0, 1]
  rhsNonContracting := [1]
  lhsBatch := []
  rhsBatch := []
  wf := dot_S16384x32x64_S64x64_S16384x32x64_2_0_01_1_n_n_wf
def dot_S16384x32x128_S128x64_S16384x32x64_2_0_01_1_n_n : DotDims S16384x32x128 S128x64 S16384x32x64 where
  lhsContracting := [2]
  rhsContracting := [0]
  lhsNonContracting := [0, 1]
  rhsNonContracting := [1]
  lhsBatch := []
  rhsBatch := []
  wf := dot_S16384x32x128_S128x64_S16384x32x64_2_0_01_1_n_n_wf
def dot_S16384x32x64_S64x16_S16384x32x16_2_0_01_1_n_n : DotDims S16384x32x64 S64x16 S16384x32x16 where
  lhsContracting := [2]
  rhsContracting := [0]
  lhsNonContracting := [0, 1]
  rhsNonContracting := [1]
  lhsBatch := []
  rhsBatch := []
  wf := dot_S16384x32x64_S64x16_S16384x32x16_2_0_01_1_n_n_wf

class Facts : Prop extends Facts₀ where

variable [Facts]
-- ==== Proof.Spec.lean ====
/-
  What both programs compute, written once on plain functions of the extended reals.

  A batch sample is 32 agents with 64 features each. Every stage of the network acts on one sample at a time:
  an affine layer on each agent's row, a clamp below at zero, and the communication step, in which each agent
  receives the mean of the OTHER agents' rows — the column sum over the 32 agents less its own row, divided by
  31 — joined behind its own row as 128 features. The network is: encode (affine, clamp), two communication
  rounds (join, affine, clamp), a hidden layer (affine, clamp), an output layer (affine) giving 16 action values
  per agent; finally an action marked unavailable (mask word 0) is given the fill value in place of its value.

  The three constants are kept as the binary words both programs print; only the zero word is ever evaluated
  (the host's column sum starts from it).
-/
import Idealize.ShloMosaic.PureOps.Ideal
import Idealize.ShloMosaic.Lib.ValueIdx

noncomputable section

namespace Cert.CommNet

open Idealize.ShloMosaic Idealize.ShloMosaic.ValueIdx
open scoped BigOperators

/-- The clamp's floor: the word of 0.0. -/
abbrev floorW : EReal := Ideal.ofBits .f32 0x00000000#32
/-- The number of other agents: the word of 31.0. -/
abbrev othersW : EReal := Ideal.ofBits .f32 0x41F80000#32
/-- The value given to an unavailable action: the word of -1e10. -/
abbrev fillW : EReal := Ideal.ofBits .f32 0xD01502F9#32

/-- An affine layer applied to each agent's row: row times matrix, plus the bias. -/
def affine {K J : ℕ} (x : Fin 32 → Fin K → EReal) (w : Fin K → Fin J → EReal) (b : Fin J → EReal) :
    Fin 32 → Fin J → EReal :=
  fun n j => (∑ k : Fin K, x n k * w k j) + b j

/-- The clamp below at zero, entry by entry. -/
def clamp {J : ℕ} (z : Fin 32 → Fin J → EReal) : Fin 32 → Fin J → EReal :=
  fun n j => max (z n j) floorW

/-- What agent `n` hears: the column sum over all 32 agents less its own row, divided by 31. -/
def heard (h : Fin 32 → Fin 64 → EReal) : Fin 32 → Fin 64 → EReal :=
  fun n j => Ideal.div ((∑ a : Fin 32, h a j) - h n j) othersW

/-- An agent's own 64 features followed by the 64 it hears. -/
def joined (h m : Fin 32 → Fin 64 → EReal) : Fin 32 → Fin 128 → EReal :=
  fun n k => if hk : k.val < 64 then h n ⟨k.val, hk⟩ else m n ⟨k.val - 64, by have := k.isLt; omega⟩

/-- One communication round. -/
def round (h : Fin 32 → Fin 64 → EReal) (w : Fin 128 → Fin 64 → EReal) (b : Fin 64 → EReal) :
    Fin 32 → Fin 64 → EReal :=
  clamp (affine (joined h (heard h)) w b)

/-- The hidden layer and the output layer after the last round. -/
def head (h : Fin 32 → Fin 64 → EReal) (w1 : Fin 64 → Fin 64 → EReal) (b1 : Fin 64 → EReal)
    (w2 : Fin 64 → Fin 16 → EReal) (b2 : Fin 16 → EReal) : Fin 32 → Fin 16 → EReal :=
  affine (clamp (affine h w1 b1)) w2 b2

/-- One sample's 32 × 16 action values. -/
def values (x : Fin 32 → Fin 64 → EReal) (ew : Fin 64 → Fin 64 → EReal) (eb : Fin 64 → EReal)
    (w0 : Fin 128 → Fin 64 → EReal) (b0 : Fin 64 → EReal) (w1 : Fin 128 → Fin 64 → EReal) (b1 : Fin 64 → EReal)
    (ow1 : Fin 64 → Fin 64 → EReal) (ob1 : Fin 64 → EReal) (ow2 : Fin 64 → Fin 16 → EReal) (ob2 : Fin 16 → EReal) :
    Fin 32 → Fin 16 → EReal :=
  head (round (round (clamp (affine x ew eb)) w0 b0) w1 b1) ow1 ob1 ow2 ob2

/-! ## Arrays as plain functions -/

/-- Sample `B` of an array of `N` samples. -/
def sample {N : ℕ} (x : (⟨3, ![N, 32, 64]⟩ : Shape).Idx → EReal) (B : Fin N) : Fin 32 → Fin 64 → EReal :=
  fun n k => x (ix3 B n k)

/-- A weight matrix. -/
def mat {K J : ℕ} (w : (⟨2, ![K, J]⟩ : Shape).Idx → EReal) : Fin K → Fin J → EReal := fun k j => w (ix2 k j)

/-- A bias vector. -/
def vec {J : ℕ} (b : (⟨1, ![J]⟩ : Shape).Idx → EReal) : Fin J → EReal := fun j => b (ix1 j)

/-- Round `r`'s weight matrix out of a stack of `R` of them. -/
def slab {R : ℕ} (w : (⟨3, ![R, 128, 64]⟩ : Shape).Idx → EReal) (r : Fin R) : Fin 128 → Fin 64 → EReal :=
  fun k j => w (ix3 r k j)

/-- Round `r`'s bias out of a stack of `R` of them. -/
def row {R : ℕ} (b : (⟨2, ![R, 64]⟩ : Shape).Idx → EReal) (r : Fin R) : Fin 64 → EReal := fun j => b (ix2 r j)

/-- The masked value at sample `B`, agent `n`, action `a`, from that sample's values `q` and its mask word. -/
def masked (word : BitVec 32) (q : EReal) : EReal := Scalar.select (IntOp.cmpi .eq word 0#32) fillW q

/-- The whole result: at (B, n, a), the masked action value of sample `B`. -/
def G (obs : (⟨3, ![16384, 32, 64]⟩ : Shape).Idx → EReal) (ew : (⟨2, ![64, 64]⟩ : Shape).Idx → EReal)
    (eb : (⟨1, ![64]⟩ : Shape).Idx → EReal) (cw : (⟨3, ![2, 128, 64]⟩ : Shape).Idx → EReal)
    (cb : (⟨2, ![2, 64]⟩ : Shape).Idx → EReal) (ow1 : (⟨2, ![64, 64]⟩ : Shape).Idx → EReal)
    (ob1 : (⟨1, ![64]⟩ : Shape).Idx → EReal) (ow2 : (⟨2, ![64, 16]⟩ : Shape).Idx → EReal)
    (ob2 : (⟨1, ![16]⟩ : Shape).Idx → EReal) (avail : (⟨3, ![16384, 32, 16]⟩ : Shape).Idx → BitVec 32) :
    (⟨3, ![16384, 32, 16]⟩ : Shape).Idx → EReal :=
  fun i => masked (avail i)
    (values (sample obs (i 0)) (mat ew) (vec eb) (slab cw 0) (row cb 0) (slab cw 1) (row cb 1)
      (mat ow1) (vec ob1) (mat ow2) (vec ob2) (i 1) (i 2))

end Cert.CommNet

end
-- ==== Proof.KerOps.lean ====
/-
  The kernel's vector operations read at one index, at the exact extended reals.

  Inside a block of 512 samples the kernel keeps the 32 agents of each sample either as a [512, 32, J] array or
  flattened to [16384, J] with agent n of sample b on row 32·b + n. The lemmas here read, at an index written by its
  coordinates, each operation that is not entrywise: the two re-layings between those forms, the sum over a sample's
  agents, the spreading of that sum back over the agents, the joining of own and heard features, a matrix product
  into the zero accumulator, and a bias row spread over all rows.
-/
import proofs.«123348_j83013127897258_2_alg».proof.Proof.Spec
import proofs.«123348_j83013127897258_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.CommKer

open Idealize.ShloMosaic Idealize.ShloMosaic.ValueIdx Cert.KernelIdeal Cert.KernelIdeal.Gen Cert.CommNet
open scoped BigOperators

variable {α : Type}

/-- The flattened row of agent `n` of sample `b`. -/
abbrev rowOf (b : Fin 512) (n : Fin 32) : Fin 16384 :=
  ⟨b.val * 32 + n.val, by have := b.isLt; have := n.isLt; omega⟩

/-- Flattening the samples' agents into rows keeps entry (b, n, j) at row 32·b + n, column j. -/
theorem flat_apply {J : ℕ} (x : (⟨3, ![512, 32, J]⟩ : Shape).Idx → α)
    (h : (⟨3, ![512, 32, J]⟩ : Shape).ShapeCasts ⟨2, ![16384, J]⟩) (b : Fin 512) (n : Fin 32) (j : Fin J) :
    shapeCast ⟨2, ![16384, J]⟩ x h (ix2 (rowOf b n) j) = x (ix3 b n j) := by
  refine shapeCast_apply x h _ _ ?_
  rw [Shape.rowMajor_val_three, Shape.rowMajor_val_two]
  rfl

/-- Un-flattening the rows into samples' agents reads entry (b, n, j) from row 32·b + n, column j. -/
theorem unflat_apply {J : ℕ} (x : (⟨2, ![16384, J]⟩ : Shape).Idx → α)
    (h : (⟨2, ![16384, J]⟩ : Shape).ShapeCasts ⟨3, ![512, 32, J]⟩) (b : Fin 512) (n : Fin 32) (j : Fin J) :
    shapeCast ⟨3, ![512, 32, J]⟩ x h (ix3 b n j) = x (ix2 (rowOf b n) j) := by
  refine shapeCast_apply x h _ _ ?_
  rw [Shape.rowMajor_val_three, Shape.rowMajor_val_two]
  rfl

/-- The sum over a sample's agents, feature by feature. -/
theorem agentSum_apply (h : FVec Ideal S512x32x64 .f32) (hr : S512x32x64.Reduces [1] S512x64) (hφ : FKind.Formats .f32)
    (hacc : (0x00000000#32 : BitVec 32) = FKind.add.neutral .f32 hφ) (b : Fin 512) (j : Fin 64) :
    multiReduction .add [1] S512x64 h 0x00000000#32 hr hφ hacc (ix2 b j) = ∑ n : Fin 32, h (ix3 b n j) := by
  refine (Ideal.multiReduction_add_single h 0x00000000#32 hr hφ hacc (ix2 b j)).trans ?_
  refine Finset.sum_congr rfl fun n _ => ?_
  exact congrArg h (funext fun a => Fin.ext (by match a with | ⟨0, _⟩ => rfl | ⟨1, _⟩ => rfl | ⟨2, _⟩ => rfl))

/-- A per-sample row of 64 features, given a unit agent axis and spread over the 32 agents, reads back the row. -/
theorem spread_apply (s : (⟨2, ![512, 64]⟩ : Shape).Idx → α) (h1 : S512x64.ShapeCasts S512x1x64)
    (h2 : S512x1x64.Broadcasts S512x32x64) (b : Fin 512) (n : Fin 32) (j : Fin 64) :
    broadcastTo S512x32x64 (shapeCast S512x1x64 s h1) h2 (ix3 b n j) = s (ix2 b j) := by
  refine (broadcastTo_apply _ h2 (ix3 b n j) (ix3 b (0 : Fin 1) j) (fun a => ?_)).trans ?_
  · match a with
    | ⟨0, _⟩ => show b.val = if (512 : Nat) = 1 then 0 else b.val; rw [if_neg (by decide)]
    | ⟨1, _⟩ => show 0 = if (1 : Nat) = 1 then 0 else n.val; rw [if_pos rfl]
    | ⟨2, _⟩ => show j.val = if (64 : Nat) = 1 then 0 else j.val; rw [if_neg (by decide)]
  · refine shapeCast_apply s h1 _ _ ?_
    rw [Shape.rowMajor_val_three, Shape.rowMajor_val_two]
    show b.val * 64 + j.val = (b.val * 1 + 0) * 64 + j.val
    omega

/-- Joining two [512, 32, 64] arrays along the features is, sample by sample, the specification's joining. -/
theorem join_apply (h m : (⟨3, ![512, 32, 64]⟩ : Shape).Idx → EReal)
    (hc : Shape.Concatenates [S512x32x64, S512x32x64] S512x32x128 2) (b : Fin 512) (n : Fin 32) (k : Fin 128) :
    concatenate S512x32x128 2 [⟨S512x32x64, h⟩, ⟨S512x32x64, m⟩] hc (ix3 b n k)
      = joined (sample h b) (sample m b) n k := by
  simp only [joined, sample]
  by_cases hk : k.val < 64
  · rw [dif_pos hk]
    exact concatenate_pair_apply_left 2 h m hc (ix3 b n k) rfl (ix3 b n ⟨k.val, hk⟩)
      (fun a => by match a with | ⟨0, _⟩ => rfl | ⟨1, _⟩ => rfl | ⟨2, _⟩ => rfl)
  · rw [dif_neg hk]
    have hk' : k.val - 64 < 64 := by have := k.isLt; omega
    exact concatenate_pair_apply_right 2 h m hc (ix3 b n k) rfl rfl (ix3 b n ⟨k.val - 64, hk'⟩)
      (fun a ha => by match a with | ⟨0, _⟩ => rfl | ⟨1, _⟩ => rfl | ⟨2, _⟩ => exact absurd rfl ha)
      (by show (k.val - 64) + 64 = k.val; omega)

/-! ## Matrix products into the zero accumulator: row r of the left factor against column j of the right -/

/-- Left factor's row coordinate for mm64_apply: the output's row. -/
theorem mm64_apply_lhs0 (i : S16384x64.Idx) (q : dot_S16384x64_S64x64_S16384x64_1_0_0_1_n_n.contr.Idx) : (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide),
    dif_pos (show (0 : Fin S16384x64.rank) ∈ dot_S16384x64_S64x64_S16384x64_1_0_0_1_n_n.lhsNonContracting by decide)]
  rfl

/-- Right factor's column coordinate for mm64_apply: the output's column. -/
theorem mm64_apply_rhs1 (i : S16384x64.Idx) (q : dot_S16384x64_S64x64_S16384x64_1_0_0_1_n_n.contr.Idx) : (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide),
    dif_pos (show (1 : Fin S64x64.rank) ∈ dot_S16384x64_S64x64_S16384x64_1_0_0_1_n_n.rhsNonContracting by decide)]
  rfl

/-- Rows of 64 features against a 64 × 64 matrix. -/
theorem mm64_apply {φ₁ φ₂ : FTy} (lhs : FVec Ideal S16384x64 φ₁) (rhs : FVec Ideal S64x64 φ₂) (r : Fin 16384) (j : Fin 64) :
    matmul dot_S16384x64_S64x64_S16384x64_1_0_0_1_n_n none lhs rhs (constant (F := Ideal) S16384x64 .f32 0x00000000#32) (ix2 r j)
      = ∑ k : Fin 64, lhs (ix2 r k) * rhs (ix2 k j) := by
  refine (Ideal.matmul_constant_zero_apply dot_S16384x64_S64x64_S16384x64_1_0_0_1_n_n none lhs rhs (ix2 r j)).trans ?_
  rw [← Equiv.sum_comp (contrEquiv1 dot_S16384x64_S64x64_S16384x64_1_0_0_1_n_n 64 rfl rfl).symm]
  refine Finset.sum_congr rfl fun k _ => ?_
  have hk := contrEquiv1_symm_val dot_S16384x64_S64x64_S16384x64_1_0_0_1_n_n 64 rfl rfl k
  have el : dot_S16384x64_S64x64_S16384x64_1_0_0_1_n_n.lhsIdx (ix2 r j) ((contrEquiv1 dot_S16384x64_S64x64_S16384x64_1_0_0_1_n_n 64 rfl rfl).symm k) = ix2 r k :=
    funext fun a => Fin.ext (by
      match a with
      | ⟨0, _⟩ => exact mm64_apply_lhs0 _ _
      | ⟨1, _⟩ => exact (dot_S16384x64_S64x64_S16384x64_1_0_0_1_n_n.lhsIdx_val_of_single rfl _ _).trans hk)
  have er : dot_S16384x64_S64x64_S16384x64_1_0_0_1_n_n.rhsIdx (ix2 r j) ((contrEquiv1 dot_S16384x64_S64x64_S16384x64_1_0_0_1_n_n 64 rfl rfl).symm k) = ix2 k j :=
    funext fun a => Fin.ext (by
      match a with
      | ⟨0, _⟩ => exact (dot_S16384x64_S64x64_S16384x64_1_0_0_1_n_n.rhsIdx_val_of_single rfl _ _).trans hk
      | ⟨1, _⟩ => exact mm64_apply_rhs1 _ _)
  rw [el, er]

/-- Left factor's row coordinate for mm128_apply: the output's row. -/
theorem mm128_apply_lhs0 (i : S16384x64.Idx) (q : dot_S16384x128_S128x64_S16384x64_1_0_0_1_n_n.contr.Idx) : (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide),
    dif_pos (show (0 : Fin S16384x128.rank) ∈ dot_S16384x128_S128x64_S16384x64_1_0_0_1_n_n.lhsNonContracting by decide)]
  rfl

/-- Right factor's column coordinate for mm128_apply: the output's column. -/
theorem mm128_apply_rhs1 (i : S16384x64.Idx) (q : dot_S16384x128_S128x64_S16384x64_1_0_0_1_n_n.contr.Idx) : (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide),
    dif_pos (show (1 : Fin S128x64.rank) ∈ dot_S16384x128_S128x64_S16384x64_1_0_0_1_n_n.rhsNonContracting by decide)]
  rfl

/-- Rows of 128 features against a 128 × 64 matrix. -/
theorem mm128_apply {φ₁ φ₂ : FTy} (lhs : FVec Ideal S16384x128 φ₁) (rhs : FVec Ideal S128x64 φ₂) (r : Fin 16384) (j : Fin 64) :
    matmul dot_S16384x128_S128x64_S16384x64_1_0_0_1_n_n none lhs rhs (constant (F := Ideal) S16384x64 .f32 0x00000000#32) (ix2 r j)
      = ∑ k : Fin 128, lhs (ix2 r k) * rhs (ix2 k j) := by
  refine (Ideal.matmul_constant_zero_apply dot_S16384x128_S128x64_S16384x64_1_0_0_1_n_n none lhs rhs (ix2 r j)).trans ?_
  rw [← Equiv.sum_comp (contrEquiv1 dot_S16384x128_S128x64_S16384x64_1_0_0_1_n_n 128 rfl rfl).symm]
  refine Finset.sum_congr rfl fun k _ => ?_
  have hk := contrEquiv1_symm_val dot_S16384x128_S128x64_S16384x64_1_0_0_1_n_n 128 rfl rfl k
  have el : dot_S16384x128_S128x64_S16384x64_1_0_0_1_n_n.lhsIdx (ix2 r j) ((contrEquiv1 dot_S16384x128_S128x64_S16384x64_1_0_0_1_n_n 128 rfl rfl).symm k) = ix2 r k :=
    funext fun a => Fin.ext (by
      match a with
      | ⟨0, _⟩ => exact mm128_apply_lhs0 _ _
      | ⟨1, _⟩ => exact (dot_S16384x128_S128x64_S16384x64_1_0_0_1_n_n.lhsIdx_val_of_single rfl _ _).trans hk)
  have er : dot_S16384x128_S128x64_S16384x64_1_0_0_1_n_n.rhsIdx (ix2 r j) ((contrEquiv1 dot_S16384x128_S128x64_S16384x64_1_0_0_1_n_n 128 rfl rfl).symm k) = ix2 k j :=
    funext fun a => Fin.ext (by
      match a with
      | ⟨0, _⟩ => exact (dot_S16384x128_S128x64_S16384x64_1_0_0_1_n_n.rhsIdx_val_of_single rfl _ _).trans hk
      | ⟨1, _⟩ => exact mm128_apply_rhs1 _ _)
  rw [el, er]

/-- Left factor's row coordinate for mm16_apply: the output's row. -/
theorem mm16_apply_lhs0 (i : S16384x16.Idx) (q : dot_S16384x64_S64x16_S16384x16_1_0_0_1_n_n.contr.Idx) : (dot_S16384x64_S64x16_S16384x16_1_0_0_1_n_n.lhsIdx i q 0).val = (i 0).val := by
  unfold DotDims.lhsIdx
  rw [dif_neg (show ¬(0 : Fin S16384x64.rank) ∈ dot_S16384x64_S64x16_S16384x16_1_0_0_1_n_n.lhsBatch by decide),
    dif_pos (show (0 : Fin S16384x64.rank) ∈ dot_S16384x64_S64x16_S16384x16_1_0_0_1_n_n.lhsNonContracting by decide)]
  rfl

/-- Right factor's column coordinate for mm16_apply: the output's column. -/
theorem mm16_apply_rhs1 (i : S16384x16.Idx) (q : dot_S16384x64_S64x16_S16384x16_1_0_0_1_n_n.contr.Idx) : (dot_S16384x64_S64x16_S16384x16_1_0_0_1_n_n.rhsIdx i q 1).val = (i 1).val := by
  unfold DotDims.rhsIdx
  rw [dif_neg (show ¬(1 : Fin S64x16.rank) ∈ dot_S16384x64_S64x16_S16384x16_1_0_0_1_n_n.rhsBatch by decide),
    dif_pos (show (1 : Fin S64x16.rank) ∈ dot_S16384x64_S64x16_S16384x16_1_0_0_1_n_n.rhsNonContracting by decide)]
  rfl

/-- Rows of 64 features against a 64 × 16 matrix. -/
theorem mm16_apply {φ₁ φ₂ : FTy} (lhs : FVec Ideal S16384x64 φ₁) (rhs : FVec Ideal S64x16 φ₂) (r : Fin 16384) (j : Fin 16) :
    matmul dot_S16384x64_S64x16_S16384x16_1_0_0_1_n_n none lhs rhs (constant (F := Ideal) S16384x16 .f32 0x00000000#32) (ix2 r j)
      = ∑ k : Fin 64, lhs (ix2 r k) * rhs (ix2 k j) := by
  refine (Ideal.matmul_constant_zero_apply dot_S16384x64_S64x16_S16384x16_1_0_0_1_n_n none lhs rhs (ix2 r j)).trans ?_
  rw [← Equiv.sum_comp (contrEquiv1 dot_S16384x64_S64x16_S16384x16_1_0_0_1_n_n 64 rfl rfl).symm]
  refine Finset.sum_congr rfl fun k _ => ?_
  have hk := contrEquiv1_symm_val dot_S16384x64_S64x16_S16384x16_1_0_0_1_n_n 64 rfl rfl k
  have el : dot_S16384x64_S64x16_S16384x16_1_0_0_1_n_n.lhsIdx (ix2 r j) ((contrEquiv1 dot_S16384x64_S64x16_S16384x16_1_0_0_1_n_n 64 rfl rfl).symm k) = ix2 r k :=
    funext fun a => Fin.ext (by
      match a with
      | ⟨0, _⟩ => exact mm16_apply_lhs0 _ _
      | ⟨1, _⟩ => exact (dot_S16384x64_S64x16_S16384x16_1_0_0_1_n_n.lhsIdx_val_of_single rfl _ _).trans hk)
  have er : dot_S16384x64_S64x16_S16384x16_1_0_0_1_n_n.rhsIdx (ix2 r j) ((contrEquiv1 dot_S16384x64_S64x16_S16384x16_1_0_0_1_n_n 64 rfl rfl).symm k) = ix2 k j :=
    funext fun a => Fin.ext (by
      match a with
      | ⟨0, _⟩ => exact (dot_S16384x64_S64x16_S16384x16_1_0_0_1_n_n.rhsIdx_val_of_single rfl _ _).trans hk
      | ⟨1, _⟩ => exact mm16_apply_rhs1 _ _)
  rw [el, er]

/-! ## Biases and weights as the body re-lays them -/

/-- A bias vector given a unit row axis and spread over all 16384 rows reads back the vector. -/
theorem biasRows_apply {J : ℕ} (v : (⟨1, ![J]⟩ : Shape).Idx → α) (h1 : (⟨1, ![J]⟩ : Shape).ShapeCasts ⟨2, ![1, J]⟩)
    (h2 : (⟨2, ![1, J]⟩ : Shape).Broadcasts ⟨2, ![16384, J]⟩) (r : Fin 16384) (j : Fin J) :
    broadcastTo ⟨2, ![16384, J]⟩ (shapeCast ⟨2, ![1, J]⟩ v h1) h2 (ix2 r j) = v (ix1 j) :=
  (broadcastTo_1b_ab_apply _ h2 r j).trans (shapeCast_a_1a_apply v h1 0 j)

/-- One round's bias, loaded as a [1, 64] row, flattened, given its row axis back and spread over all rows. -/
theorem roundBias_apply (B : (⟨2, ![1, 64]⟩ : Shape).Idx → α) (h0 : (⟨2, ![1, 64]⟩ : Shape).ShapeCasts ⟨1, ![64]⟩)
    (h1 : (⟨1, ![64]⟩ : Shape).ShapeCasts ⟨2, ![1, 64]⟩) (h2 : (⟨2, ![1, 64]⟩ : Shape).Broadcasts ⟨2, ![16384, 64]⟩)
    (r : Fin 16384) (j : Fin 64) :
    broadcastTo ⟨2, ![16384, 64]⟩ (shapeCast ⟨2, ![1, 64]⟩ (shapeCast ⟨1, ![64]⟩ B h0) h1) h2 (ix2 r j)
      = B (ix2 (0 : Fin 1) j) :=
  (biasRows_apply _ h1 h2 r j).trans (shapeCast_1a_a_apply B h0 j)

/-! ## The body's four stages as functions of vectors -/

/-- Encode: every agent's observation row through the encoder's affine layer, clamped; laid out by sample. -/
def encK (P1 : Vec Ideal S512x32x64 .f32) (P2 : Vec Ideal S64x64 .f32) (P3 : Vec Ideal S64 .f32) :
    FVec Ideal S512x32x64 .f32 :=
  shapeCast S512x32x64
    (maximumf
      (addf
        (matmul dot_S16384x64_S64x64_S16384x64_1_0_0_1_n_n none
          (shapeCast S16384x64 (truncf .bf16 P1 bitsLt_bf16_f32) shapeCasts_S512x32x64_S16384x64)
          (truncf .bf16 P2 bitsLt_bf16_f32) (constant S16384x64 .f32 0x00000000#32))
        (broadcastTo S16384x64 (shapeCast S1x64 P3 shapeCasts_S64_S1x64) broadcasts_S1x64_S16384x64))
      (broadcast S16384x64 (Scalar.ofBits .f32 0x00000000#32)))
    shapeCasts_S16384x64_S512x32x64

/-- What every agent hears: the sum over its sample's agents spread back, less its own row, over 31. -/
def heardK (h : FVec Ideal S512x32x64 .f32) : FVec Ideal S512x32x64 .f32 :=
  divf
    (subf
      (broadcastTo S512x32x64
        (shapeCast S512x1x64
          (multiReduction .add [1] S512x64 h 0x00000000#32 reduces_S512x32x64_S512x64 (.inl rfl) rfl)
          shapeCasts_S512x64_S512x1x64)
        broadcasts_S512x1x64_S512x32x64)
      h)
    (broadcast S512x32x64 (Scalar.ofBits .f32 0x41F80000#32))

/-- Own and heard features joined, through one round's affine layer, clamped; laid out by sample. -/
def mixK (h m : FVec Ideal S512x32x64 .f32) (W : Vec Ideal S1x128x64 .f32) (B : Vec Ideal S1x64 .f32) :
    FVec Ideal S512x32x64 .f32 :=
  shapeCast S512x32x64
    (maximumf
      (addf
        (matmul dot_S16384x128_S128x64_S16384x64_1_0_0_1_n_n none
          (truncf .bf16
            (shapeCast S16384x128
              (concatenate S512x32x128 2 [⟨S512x32x64, h⟩, ⟨S512x32x64, m⟩] concatenates_S512x32x64_S512x32x64_S512x32x128_d2)
              shapeCasts_S512x32x128_S16384x128)
            bitsLt_bf16_f32)
          (truncf .bf16 (shapeCast S128x64 W shapeCasts_S1x128x64_S128x64) bitsLt_bf16_f32)
          (constant S16384x64 .f32 0x00000000#32))
        (broadcastTo S16384x64 (shapeCast S1x64 (shapeCast S64 B shapeCasts_S1x64_S64) shapeCasts_S64_S1x64)
          broadcasts_S1x64_S16384x64))
      (broadcast S16384x64 (Scalar.ofBits .f32 0x00000000#32)))
    shapeCasts_S16384x64_S512x32x64

/-- The hidden layer (affine, clamped) and the output layer (affine); laid out by sample. -/
def headK (h : FVec Ideal S512x32x64 .f32) (W1 : Vec Ideal S64x64 .f32) (B1 : Vec Ideal S64 .f32)
    (W2 : Vec Ideal S64x16 .f32) (B2 : Vec Ideal S16 .f32) : FVec Ideal S512x32x16 .f32 :=
  shapeCast S512x32x16
    (addf
      (matmul dot_S16384x64_S64x16_S16384x16_1_0_0_1_n_n none
        (truncf .bf16
          (maximumf
            (addf
              (matmul dot_S16384x64_S64x64_S16384x64_1_0_0_1_n_n none
                (truncf .bf16 (shapeCast S16384x64 h shapeCasts_S512x32x64_S16384x64) bitsLt_bf16_f32)
                (truncf .bf16 W1 bitsLt_bf16_f32) (constant S16384x64 .f32 0x00000000#32))
              (broadcastTo S16384x64 (shapeCast S1x64 B1 shapeCasts_S64_S1x64) broadcasts_S1x64_S16384x64))
            (broadcast S16384x64 (Scalar.ofBits .f32 0x00000000#32)))
          bitsLt_bf16_f32)
        (truncf .bf16 W2 bitsLt_bf16_f32) (constant S16384x16 .f32 0x00000000#32))
      (broadcastTo S16384x16 (shapeCast S1x16 B2 shapeCasts_S16_S1x16) broadcasts_S1x16_S16384x16))
    shapeCasts_S16384x16_S512x32x16

/-- The first carried value of the body is one round applied to the encoding. -/
theorem pay2_eq (P1 : Vec Ideal S512x32x64 .f32) (P2 : Vec Ideal S64x64 .f32) (P3 : Vec Ideal S64 .f32)
    (P4 : Vec Ideal S1x128x64 .f32) (P5 : Vec Ideal S1x64 .f32) :
    k0_pay2 (F := Ideal) P1 P2 P3 P4 P5 = mixK (encK P1 P2 P3) (heardK (encK P1 P2 P3)) P4 P5 := rfl

/-- The unmasked values are the head applied to a second round of the two carried values. -/
theorem pay4_eq (h m : FVec Ideal S512x32x64 .f32) (P6 : Vec Ideal S1x128x64 .f32) (P7 : Vec Ideal S1x64 .f32)
    (P8 : Vec Ideal S64x64 .f32) (P9 : Vec Ideal S64 .f32) (P10 : Vec Ideal S64x16 .f32) (P11 : Vec Ideal S16 .f32) :
    k0_pay4 (F := Ideal) h m P6 P7 P8 P9 P10 P11 = headK (mixK h m P6 P7) P8 P9 P10 P11 := rfl

end Cert.CommKer

end
-- ==== Proof.KerStages.lean ====
/-
  The kernel's four stages, read one sample at a time.

  Each stage of the body, as a function of [512, 32, ·] blocks, is at sample b the specification's stage of that
  sample's 32 agent rows: the encoding, what the agents hear, one communication round, and the two-layer head. The
  proofs push the index (b, n, j) through the entrywise operations and use one lemma per re-laying, sum or product.
-/
import proofs.«123348_j83013127897258_2_alg».proof.Proof.KerOps

noncomputable section

namespace Cert.CommKer

open Idealize.ShloMosaic Idealize.ShloMosaic.ValueIdx Cert.KernelIdeal Cert.KernelIdeal.Gen Cert.CommNet
open scoped BigOperators

/-- The encoding of agent n of sample b is that sample's observation rows through the encoder, clamped. -/
theorem encK_apply (P1 : Vec Ideal S512x32x64 .f32) (P2 : Vec Ideal S64x64 .f32) (P3 : Vec Ideal S64 .f32)
    (b : Fin 512) (n : Fin 32) (j : Fin 64) :
    encK P1 P2 P3 (ix3 b n j) = clamp (affine (sample P1 b) (mat P2) (vec P3)) n j := by
  unfold encK
  rw [unflat_apply, maximumf_apply, addf_apply, broadcast_apply, mm64_apply, biasRows_apply]
  simp only [clamp, affine, sample, mat, vec, truncf_apply, flat_apply]
  rfl

/-- The sum over a sample's agents, with the accumulator word's neutrality stated as the body's text has it. -/
theorem agentSum_word (h : FVec Ideal S512x32x64 .f32) (hr : S512x32x64.Reduces [1] S512x64) (hφ : FKind.Formats .f32)
    (hacc : (0x00000000#32 : BitVec 32) = 0x00000000#32) (b : Fin 512) (j : Fin 64) :
    multiReduction .add [1] S512x64 h 0x00000000#32 hr hφ hacc (ix2 b j) = ∑ n : Fin 32, h (ix3 b n j) :=
  agentSum_apply h hr hφ hacc b j

/-- What agent n of sample b hears is computed from that sample's rows alone. -/
theorem heardK_apply (h : FVec Ideal S512x32x64 .f32) (b : Fin 512) (n : Fin 32) (j : Fin 64) :
    heardK h (ix3 b n j) = heard (sample h b) n j := by
  unfold heardK
  rw [divf_apply, subf_apply, broadcast_apply, spread_apply, agentSum_word]
  rfl

/-- One round's affine layer on the joined features, clamped, sample by sample. -/
theorem mixK_apply (h m : FVec Ideal S512x32x64 .f32) (W : Vec Ideal S1x128x64 .f32) (B : Vec Ideal S1x64 .f32)
    (b : Fin 512) (n : Fin 32) (j : Fin 64) :
    mixK h m W B (ix3 b n j)
      = clamp (affine (joined (sample h b) (sample m b)) (slab W 0) (row B 0)) n j := by
  unfold mixK
  rw [unflat_apply, maximumf_apply, addf_apply, broadcast_apply, mm128_apply, roundBias_apply]
  simp only [clamp, affine, slab, row, truncf_apply, flat_apply, join_apply, shapeCast_1ab_ab_apply]
  rfl

/-- The head, sample by sample. -/
theorem headK_apply (h : FVec Ideal S512x32x64 .f32) (W1 : Vec Ideal S64x64 .f32) (B1 : Vec Ideal S64 .f32)
    (W2 : Vec Ideal S64x16 .f32) (B2 : Vec Ideal S16 .f32) (b : Fin 512) (n : Fin 32) (a : Fin 16) :
    headK h W1 B1 W2 B2 (ix3 b n a) = head (sample h b) (mat W1) (vec B1) (mat W2) (vec B2) n a := by
  unfold headK
  rw [unflat_apply, addf_apply, mm16_apply, biasRows_apply]
  simp only [head, clamp, affine, sample, mat, vec, truncf_apply, maximumf_apply, addf_apply, broadcast_apply,
    mm64_apply, biasRows_apply, flat_apply]
  rfl

/-- The encoding of sample b. -/
theorem encK_sample (P1 : Vec Ideal S512x32x64 .f32) (P2 : Vec Ideal S64x64 .f32) (P3 : Vec Ideal S64 .f32) (b : Fin 512) :
    sample (encK P1 P2 P3) b = clamp (affine (sample P1 b) (mat P2) (vec P3)) :=
  funext fun n => funext fun j => encK_apply P1 P2 P3 b n j

/-- What sample b's agents hear. -/
theorem heardK_sample (h : FVec Ideal S512x32x64 .f32) (b : Fin 512) : sample (heardK h) b = heard (sample h b) :=
  funext fun n => funext fun j => heardK_apply h b n j

/-- One whole round on sample b: joining what is heard, the affine layer, the clamp. -/
theorem roundK_sample (h : FVec Ideal S512x32x64 .f32) (W : Vec Ideal S1x128x64 .f32) (B : Vec Ideal S1x64 .f32)
    (b : Fin 512) :
    sample (mixK h (heardK h) W B) b = CommNet.round (sample h b) (slab W 0) (row B 0) := by
  funext n j
  refine (mixK_apply h (heardK h) W B b n j).trans ?_
  rw [heardK_sample]
  rfl

end Cert.CommKer

end
-- ==== Proof.KerBlock.lean ====
/-
  What one grid point leaves in the output window's buffer.

  At entry (b, n, a) of the block the body stores: the fill value where the mask word of (b, n, a) is zero, and
  otherwise the action value the network gives agent n of sample b — the head of two communication rounds of the
  encoding of that sample's observation rows. The round weights are read from the stack of two matrices through a
  one-matrix window at offset 0 and at offset 1; everything else is read whole.
-/
import proofs.«123348_j83013127897258_2_alg».proof.Proof.KerStages
import proofs.«123348_j83013127897258_2_alg».proof.Proof.Gen.KernelIdeal.Value

noncomputable section

namespace Cert.CommKer

open Idealize.ShloMosaic Idealize.ShloMosaic.ValueIdx Cert.KernelIdeal Cert.KernelIdeal.Gen Cert.KernelIdeal.Value Cert.CommNet
open scoped BigOperators

/-- The block as a function of the body's loads, at (b, n, a): the masked action value of sample b. -/
theorem block_apply (P0 : Vec Ideal S512x32x16 .i32) (P1 : Vec Ideal S512x32x64 .f32) (P2 : Vec Ideal S64x64 .f32)
    (P3 : Vec Ideal S64 .f32) (P4 : Vec Ideal S1x128x64 .f32) (P5 : Vec Ideal S1x64 .f32) (P6 : Vec Ideal S1x128x64 .f32)
    (P7 : Vec Ideal S1x64 .f32) (P8 : Vec Ideal S64x64 .f32) (P9 : Vec Ideal S64 .f32) (P10 : Vec Ideal S64x16 .f32)
    (P11 : Vec Ideal S16 .f32) (b : Fin 512) (n : Fin 32) (a : Fin 16) :
    E10 P0 P1 P2 P3 P4 P5 P6 P7 P8 P9 P10 P11 (ix3 b n a)
      = masked (P0 (ix3 b n a))
          (values (sample P1 b) (mat P2) (vec P3) (slab P4 0) (row P5 0) (slab P6 0) (row P7 0)
            (mat P8) (vec P9) (mat P10) (vec P11) n a) := by
  have e0 : ix10_0 (ix3 b n a) = ix3 b n a := funext fun d => Fin.ext (by match d with | ⟨0, _⟩ => rfl | ⟨1, _⟩ => rfl | ⟨2, _⟩ => rfl)
  have e1 : ix10_1 (ix3 b n a) = ix3 b n a := funext fun d => Fin.ext (by match d with | ⟨0, _⟩ => rfl | ⟨1, _⟩ => rfl | ⟨2, _⟩ => rfl)
  have e2 : ix10_2 (ix3 b n a) = ix3 b n a := funext fun d => Fin.ext (by match d with | ⟨0, _⟩ => rfl | ⟨1, _⟩ => rfl | ⟨2, _⟩ => rfl)
  show Scalar.select (IntOp.cmpi .eq (P0 (ix10_0 (ix3 b n a))) 0#32) (k0_pay6 (F := Ideal) (ix10_1 (ix3 b n a)))
      (k0_pay4 (F := Ideal) (k0_pay2 P1 P2 P3 P4 P5) (heardK (k0_pay2 P1 P2 P3 P4 P5)) P6 P7 P8 P9 P10 P11
        (ix10_2 (ix3 b n a))) = _
  rw [e0, e1, e2, pay4_eq, pay2_eq, headK_apply, roundK_sample, roundK_sample, encK_sample]
  rfl

/-- The one-matrix window at offset 0 of the stack of round weights is round 0's matrix. -/
theorem slab_ld0 (x4 : Vec Ideal S2x128x64 .f32) : slab (View.ld x4 r0_3) 0 = slab x4 0 := by
  funext k j
  show x4 (r0_3.emb (ix3 (0 : Fin 1) k j)) = x4 (ix3 (0 : Fin 2) k j)
  refine congrArg x4 (funext fun d => Fin.ext ?_)
  match d with
  | ⟨0, _⟩ => show 0 + 1 * 0 = 0; rfl
  | ⟨1, _⟩ => show 0 + 1 * k.val = k.val; omega
  | ⟨2, _⟩ => show 0 + 1 * j.val = j.val; omega

/-- The one-matrix window at offset 1 of the stack of round weights is round 1's matrix. -/
theorem slab_ld1 (x4 : Vec Ideal S2x128x64 .f32) : slab (View.ld x4 r0_5) 0 = slab x4 1 := by
  funext k j
  show x4 (r0_5.emb (ix3 (0 : Fin 1) k j)) = x4 (ix3 (1 : Fin 2) k j)
  refine congrArg x4 (funext fun d => Fin.ext ?_)
  match d with
  | ⟨0, _⟩ => show 1 + 1 * 0 = 1; rfl
  | ⟨1, _⟩ => show 0 + 1 * k.val = k.val; omega
  | ⟨2, _⟩ => show 0 + 1 * j.val = j.val; omega

/-- The one-row window at offset 0 of the stack of round biases is round 0's bias. -/
theorem row_ld0 (x5 : Vec Ideal S2x64 .f32) : row (View.ld x5 r0_4) 0 = row x5 0 := by
  funext j
  show x5 (r0_4.emb (ix2 (0 : Fin 1) j)) = x5 (ix2 (0 : Fin 2) j)
  refine congrArg x5 (funext fun d => Fin.ext ?_)
  match d with
  | ⟨0, _⟩ => show 0 + 1 * 0 = 0; rfl
  | ⟨1, _⟩ => show 0 + 1 * j.val = j.val; omega

/-- The one-row window at offset 1 of the stack of round biases is round 1's bias. -/
theorem row_ld1 (x5 : Vec Ideal S2x64 .f32) : row (View.ld x5 r0_6) 0 = row x5 1 := by
  funext j
  show x5 (r0_6.emb (ix2 (0 : Fin 1) j)) = x5 (ix2 (1 : Fin 2) j)
  refine congrArg x5 (funext fun d => Fin.ext ?_)
  match d with
  | ⟨0, _⟩ => show 1 + 1 * 0 = 1; rfl
  | ⟨1, _⟩ => show 0 + 1 * j.val = j.val; omega

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- What the body leaves in the output window's buffer, from the ten input windows' blocks. -/
theorem out_apply (x0 : Vec Ideal S512x32x64 .f32) (x1 : Vec Ideal S512x32x16 .i32) (x2 : Vec Ideal S64x64 .f32)
    (x3 : Vec Ideal S64 .f32) (x4 : Vec Ideal S2x128x64 .f32) (x5 : Vec Ideal S2x64 .f32) (x6 : Vec Ideal S64x64 .f32)
    (x7 : Vec Ideal S64 .f32) (x8 : Vec Ideal S64x16 .f32) (x9 : Vec Ideal S16 .f32) (b : Fin 512) (n : Fin 32) (a : Fin 16) :
    out0_10 x0 x1 x2 x3 x4 x5 x6 x7 x8 x9 (ix3 b n a)
      = masked (x1 (ix3 b n a))
          (values (sample x0 b) (mat x2) (vec x3) (slab x4 0) (row x5 0) (slab x4 1) (row x5 1)
            (mat x6) (vec x7) (mat x8) (vec x9) n a) := by
  unfold out0_10
  refine (canon10_eq (View.ld x1 r0_9) (View.ld x0 r0_0) (View.ld x2 r0_1) (View.ld x3 r0_2) (View.ld x4 r0_3)
    (View.ld x5 r0_4) (View.ld x4 r0_5) (View.ld x5 r0_6) (View.ld x6 r0_1) (View.ld x7 r0_2) (View.ld x8 r0_7)
    (View.ld x9 r0_8) (ix3 b n a)).trans ?_
  rw [block_apply, slab_ld0, slab_ld1, row_ld0, row_ld1]
  simp only [View.ld_unit_zero (S := S512x32x64) zeros3, View.ld_unit_zero (S := S512x32x16) zeros3,
    View.ld_unit_zero (S := S64x64) zeros2, View.ld_unit_zero (S := S64x16) zeros2,
    View.ld_unit_zero (S := S64) zeros1, View.ld_unit_zero (S := S16) zeros1]
  have hmask : View.ld x1 r0_9 = x1 := View.ld_unit_zero (S := S512x32x16) zeros3 _ x1
  rw [hmask]

end Cert.CommKer

end
-- ==== Proof.KerValue.lean ====
/-
  From the kernel's blocks to the whole result array.

  The grid has 32 points. Point t takes block t of the observations and of the mask — the 512 samples
  512·t … 512·t + 511 — and every weight and bias whole, and writes back block t of the result. Given the body's
  result at one position of a block (sample b of the block, agent n, action a: the masked action value computed from
  that sample's observations), what point t writes back is block t of the specification's result of the argument
  arrays; the 32 blocks cover the 16384 samples (sample B is in the block of point B / 512), so after the run the
  result array is the specification's result, and the arguments are unchanged.
-/
import proofs.«123348_j83013127897258_2_alg».proof.Proof.KerBlock

noncomputable section

namespace Cert.CommKer

open Idealize.ShloMosaic Idealize.ShloMosaic.ValueIdx Idealize.ShloMosaic.TcCoe Idealize.SL.Sem
open Cert.KernelIdeal Cert.KernelIdeal.Gen Cert.KernelIdeal.Value Cert.CommNet
open Idealize.ShloMosaic.Pipeline (Dat)

variable (m : (ℓ : Loc nD τ sig) → Buf (Elt Ideal) ℓ) (ρ : Dev nD → PrngReg)

/-- The specification's result array of the argument arrays as launched on core c. -/
abbrev Gm (c : Dev nD) : S16384x32x16.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Which blocks a grid point takes: the observations, the mask and the result move with the point along the sample
    axis, one block of 512 samples per point; every weight and bias is taken whole at every point. -/
theorem block_index : ∀ t : Fin cfg0.N,
    win0_10.index t (0 : Fin 3) = t.val ∧ win0_10.index t (1 : Fin 3) = 0 ∧ win0_10.index t (2 : Fin 3) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-- The sample that point `t`'s block holds at position `b`: sample 512·t + b. -/
def sampleOf (t : Fin cfg0.N) (b : Fin 512) : Fin 16384 :=
  ⟨t.val * 512 + b.val, by have ht : t.val < 32 := lt_of_lt_of_eq t.isLt N_0; have hb := b.isLt; omega⟩

/-- The observations' block at point `t`, position `b`, is sample 512·t + b of the observations. -/
theorem obs_block (c : Dev nD) (t : Fin cfg0.N) (b : Fin 512) :
    sample (iblk m c 0 t : Vec Ideal S512x32x64 .f32) b = sample (m ((c : Thread nD τ).loc main_arg0)) (sampleOf t b) := by
  obtain ⟨-, -, -, e0, e1, e2, -⟩ := block_index t
  funext n k
  show (iblk m c 0 t : Vec Ideal S512x32x64 .f32) (ix3 b n k) = m ((c : Thread nD τ).loc main_arg0) (ix3 (sampleOf t b) n k)
  unfold iblk
  rw [View.read_apply]
  show V m c main_arg0 _ = m ((c : Thread nD τ).loc main_arg0) _
  unfold V
  refine congrArg _ (funext fun d => Fin.ext ?_)
  match d with
  | ⟨0, _⟩ => show win0_0.index t (0 : Fin 3) * 512 + 1 * b.val = t.val * 512 + b.val; omega
  | ⟨1, _⟩ => show win0_0.index t (1 : Fin 3) * 32 + 1 * n.val = n.val; omega
  | ⟨2, _⟩ => show win0_0.index t (2 : Fin 3) * 64 + 1 * k.val = k.val; omega

/-- The mask's block at point `t`, position `b`, is sample 512·t + b of the mask. -/
theorem mask_block (c : Dev nD) (t : Fin cfg0.N) (b : Fin 512) (n : Fin 32) (a : Fin 16) :
    (iblk m c 1 t : Vec Ideal S512x32x16 .i32) (ix3 b n a) = m ((c : Thread nD τ).loc main_arg9) (ix3 (sampleOf t b) n a) := by
  obtain ⟨-, -, -, -, -, -, k0, k1, k2, -, -, -, -, -, -, -, -, -, -, -, -, -, -⟩ := block_index t
  unfold iblk
  rw [View.read_apply]
  show V m c main_arg9 _ = m ((c : Thread nD τ).loc main_arg9) _
  unfold V
  refine congrArg _ (funext fun d => Fin.ext ?_)
  match d with
  | ⟨0, _⟩ => show win0_1.index t (0 : Fin 3) * 512 + 1 * b.val = t.val * 512 + b.val; omega
  | ⟨1, _⟩ => show win0_1.index t (1 : Fin 3) * 32 + 1 * n.val = n.val; omega
  | ⟨2, _⟩ => show win0_1.index t (2 : Fin 3) * 16 + 1 * a.val = a.val; omega

/-- The encoder's weights are taken whole at every point: the block is the array. -/
theorem whole_2 (c : Dev nD) (t : Fin cfg0.N) :
    (iblk m c 2 t : Vec Ideal S64x64 .f32) = m ((c : Thread nD τ).loc main_arg1) := by
  obtain ⟨-, -, -, -, -, -, -, -, -, w2_0, w2_1, -, -, -, -, -, -, -, -, -, -, -, -⟩ := block_index t
  funext y
  unfold iblk
  rw [View.read_apply]
  show V m c main_arg1 _ = m ((c : Thread nD τ).loc main_arg1) y
  unfold V
  refine congrArg _ (funext fun d => Fin.ext ?_)
  match d with
  | ⟨0, _⟩ => show win0_2.index t (0 : Fin 2) * 64 + 1 * (y 0).val = (y 0).val; omega
  | ⟨1, _⟩ => show win0_2.index t (1 : Fin 2) * 64 + 1 * (y 1).val = (y 1).val; omega

/-- The encoder's bias is taken whole at every point: the block is the array. -/
theorem whole_3 (c : Dev nD) (t : Fin cfg0.N) :
    (iblk m c 3 t : Vec Ideal S64 .f32) = m ((c : Thread nD τ).loc main_arg2) := by
  obtain ⟨-, -, -, -, -, -, -, -, -, -, -, w3_0, -, -, -, -, -, -, -, -, -, -, -⟩ := block_index t
  funext y
  unfold iblk
  rw [View.read_apply]
  show V m c main_arg2 _ = m ((c : Thread nD τ).loc main_arg2) y
  unfold V
  refine congrArg _ (funext fun d => Fin.ext ?_)
  match d with
  | ⟨0, _⟩ => show win0_3.index t (0 : Fin 1) * 64 + 1 * (y 0).val = (y 0).val; omega

/-- The two rounds' weights are taken whole at every point: the block is the array. -/
theorem whole_4 (c : Dev nD) (t : Fin cfg0.N) :
    (iblk m c 4 t : Vec Ideal S2x128x64 .f32) = m ((c : Thread nD τ).loc main_arg3) := by
  obtain ⟨-, -, -, -, -, -, -, -, -, -, -, -, w4_0, w4_1, w4_2, -, -, -, -, -, -, -, -⟩ := block_index t
  funext y
  unfold iblk
  rw [View.read_apply]
  show V m c main_arg3 _ = m ((c : Thread nD τ).loc main_arg3) y
  unfold V
  refine congrArg _ (funext fun d => Fin.ext ?_)
  match d with
  | ⟨0, _⟩ => show win0_4.index t (0 : Fin 3) * 2 + 1 * (y 0).val = (y 0).val; omega
  | ⟨1, _⟩ => show win0_4.index t (1 : Fin 3) * 128 + 1 * (y 1).val = (y 1).val; omega
  | ⟨2, _⟩ => show win0_4.index t (2 : Fin 3) * 64 + 1 * (y 2).val = (y 2).val; omega

/-- The two rounds' biases are taken whole at every point: the block is the array. -/
theorem whole_5 (c : Dev nD) (t : Fin cfg0.N) :
    (iblk m c 5 t : Vec Ideal S2x64 .f32) = m ((c : Thread nD τ).loc main_arg4) := by
  obtain ⟨-, -, -, -, -, -, -, -, -, -, -, -, -, -, -, w5_0, w5_1, -, -, -, -, -, -⟩ := block_index t
  funext y
  unfold iblk
  rw [View.read_apply]
  show V m c main_arg4 _ = m ((c : Thread nD τ).loc main_arg4) y
  unfold V
  refine congrArg _ (funext fun d => Fin.ext ?_)
  match d with
  | ⟨0, _⟩ => show win0_5.index t (0 : Fin 2) * 2 + 1 * (y 0).val = (y 0).val; omega
  | ⟨1, _⟩ => show win0_5.index t (1 : Fin 2) * 64 + 1 * (y 1).val = (y 1).val; omega

/-- The hidden layer's weights are taken whole at every point: the block is the array. -/
theorem whole_6 (c : Dev nD) (t : Fin cfg0.N) :
    (iblk m c 6 t : Vec Ideal S64x64 .f32) = m ((c : Thread nD τ).loc main_arg5) := by
  obtain ⟨-, -, -, -, -, -, -, -, -, -, -, -, -, -, -, -, -, w6_0, w6_1, -, -, -, -⟩ := block_index t
  funext y
  unfold iblk
  rw [View.read_apply]
  show V m c main_arg5 _ = m ((c : Thread nD τ).loc main_arg5) y
  unfold V
  refine congrArg _ (funext fun d => Fin.ext ?_)
  match d with
  | ⟨0, _⟩ => show win0_6.index t (0 : Fin 2) * 64 + 1 * (y 0).val = (y 0).val; omega
  | ⟨1, _⟩ => show win0_6.index t (1 : Fin 2) * 64 + 1 * (y 1).val = (y 1).val; omega

/-- The hidden layer's bias is taken whole at every point: the block is the array. -/
theorem whole_7 (c : Dev nD) (t : Fin cfg0.N) :
    (iblk m c 7 t : Vec Ideal S64 .f32) = m ((c : Thread nD τ).loc main_arg6) := by
  obtain ⟨-, -, -, -, -, -, -, -, -, -, -, -, -, -, -, -, -, -, -, w7_0, -, -, -⟩ := block_index t
  funext y
  unfold iblk
  rw [View.read_apply]
  show V m c main_arg6 _ = m ((c : Thread nD τ).loc main_arg6) y
  unfold V
  refine congrArg _ (funext fun d => Fin.ext ?_)
  match d with
  | ⟨0, _⟩ => show win0_7.index t (0 : Fin 1) * 64 + 1 * (y 0).val = (y 0).val; omega

/-- The output layer's weights are taken whole at every point: the block is the array. -/
theorem whole_8 (c : Dev nD) (t : Fin cfg0.N) :
    (iblk m c 8 t : Vec Ideal S64x16 .f32) = m ((c : Thread nD τ).loc main_arg7) := by
  obtain ⟨-, -, -, -, -, -, -, -, -, -, -, -, -, -, -, -, -, -, -, -, w8_0, w8_1, -⟩ := block_index t
  funext y
  unfold iblk
  rw [View.read_apply]
  show V m c main_arg7 _ = m ((c : Thread nD τ).loc main_arg7) y
  unfold V
  refine congrArg _ (funext fun d => Fin.ext ?_)
  match d with
  | ⟨0, _⟩ => show win0_8.index t (0 : Fin 2) * 64 + 1 * (y 0).val = (y 0).val; omega
  | ⟨1, _⟩ => show win0_8.index t (1 : Fin 2) * 16 + 1 * (y 1).val = (y 1).val; omega

/-- The output layer's bias is taken whole at every point: the block is the array. -/
theorem whole_9 (c : Dev nD) (t : Fin cfg0.N) :
    (iblk m c 9 t : Vec Ideal S16 .f32) = m ((c : Thread nD τ).loc main_arg8) := by
  obtain ⟨-, -, -, -, -, -, -, -, -, -, -, -, -, -, -, -, -, -, -, -, -, -, w9_0⟩ := block_index t
  funext y
  unfold iblk
  rw [View.read_apply]
  show V m c main_arg8 _ = m ((c : Thread nD τ).loc main_arg8) y
  unfold V
  refine congrArg _ (funext fun d => Fin.ext ?_)
  match d with
  | ⟨0, _⟩ => show win0_9.index t (0 : Fin 1) * 16 + 1 * (y 0).val = (y 0).val; omega

/-- The specification's result at sample `B`, agent `n`, action `a`. -/
theorem Gm_at (c : Dev nD) (B : Fin 16384) (n : Fin 32) (a : Fin 16) :
    Gm m c (ix3 B n a)
      = masked (m ((c : Thread nD τ).loc main_arg9) (ix3 B n a))
          (values (sample (m ((c : Thread nD τ).loc main_arg0)) B) (mat (m ((c : Thread nD τ).loc main_arg1))) (vec (m ((c : Thread nD τ).loc main_arg2))) (slab (m ((c : Thread nD τ).loc main_arg3)) 0) (row (m ((c : Thread nD τ).loc main_arg4)) 0)
            (slab (m ((c : Thread nD τ).loc main_arg3)) 1) (row (m ((c : Thread nD τ).loc main_arg4)) 1) (mat (m ((c : Thread nD τ).loc main_arg5))) (vec (m ((c : Thread nD τ).loc main_arg6))) (mat (m ((c : Thread nD τ).loc main_arg7))) (vec (m ((c : Thread nD τ).loc main_arg8))) n a) := rfl

/-- What point `t` writes back is block `t` of the specification's result: the 512 samples 512·t … 512·t + 511,
    each sample's masked action values computed from that sample's observations and the whole weights. -/
theorem flushed_eq (c : Dev nD) (t : Fin cfg0.N) :
    (dats m 0 c).flushed 10 t = ((cfg0.win 10).blk t).view.read (Elt Ideal) (Gm m c) := by
  rw [flushed10]
  obtain ⟨r0, r1, r2, -, -, -, -, -, -, -, -, -, -, -, -, -, -, -, -, -, -, -, -⟩ := block_index t
  funext y
  obtain ⟨b, n, a, rfl⟩ : ∃ (b : Fin 512) (n : Fin 32) (a : Fin 16), y = ix3 b n a := ⟨y 0, y 1, y 2, eq_ix3 y⟩
  rw [View.read_apply]
  have hi : ((cfg0.win 10).blk t).view.emb (ix3 b n a) = ix3 (sampleOf t b) n a := funext fun d => Fin.ext (by
    match d with
    | ⟨0, _⟩ => show win0_10.index t (0 : Fin 3) * 512 + 1 * b.val = t.val * 512 + b.val; omega
    | ⟨1, _⟩ => show win0_10.index t (1 : Fin 3) * 32 + 1 * n.val = n.val; omega
    | ⟨2, _⟩ => show win0_10.index t (2 : Fin 3) * 16 + 1 * a.val = a.val; omega)
  rw [hi, Gm_at]
  show out0_10 (iblk m c 0 t) (iblk m c 1 t) (iblk m c 2 t) (iblk m c 3 t) (iblk m c 4 t) (iblk m c 5 t) (iblk m c 6 t)
    (iblk m c 7 t) (iblk m c 8 t) (iblk m c 9 t) (ix3 b n a) = _
  refine (out_apply _ _ _ _ _ _ _ _ _ _ b n a).trans ?_
  rw [mask_block m c t b n a, obs_block m c t b, whole_2 m c t, whole_3 m c t, whole_4 m c t, whole_5 m c t,
    whole_6 m c t, whole_7 m c t, whole_8 m c t, whole_9 m c t]
  rfl

/-- An index of the result array is in point `t`'s block iff each coordinate is in the block's range on its axis. -/
theorem mem_blk (t : Fin cfg0.N) (i : S16384x32x16.Idx) :
    i ∈ ((cfg0.win 10).blk t).view.set ↔ ∀ a : Fin 3, win0_10.index t a * S512x32x16.size a ≤ (i a).val ∧ (i a).val < win0_10.index t a * S512x32x16.size a + S512x32x16.size a := by
  show i ∈ ((View.whole main_v0).slice (win0_10.rect t)).set ↔ _
  rw [View.set_slice_whole, Rect.mem_set_unit]
  exact Iff.rfl

/-- The 32 blocks of 512 samples cover the 16384 samples: sample `B` is in the block of point `B / 512`. -/
theorem covered (i : S16384x32x16.Idx) :
    ∃ t : Fin cfg0.N, (cfg0.win 10).flush t = true ∧ i ∈ ((cfg0.win 10).blk t).view.set := by
  have h0 : (i 0).val < 16384 := (i 0).isLt
  have h1 : (i 1).val < 32 := (i 1).isLt
  have h2 : (i 2).val < 16 := (i 2).isLt
  obtain ⟨t, ht⟩ : ∃ t : Fin cfg0.N, t.val = (i 0).val / 512 :=
    ⟨⟨(i 0).val / 512, lt_of_lt_of_eq (by omega : (i 0).val / 512 < 32) N_0.symm⟩, rfl⟩
  obtain ⟨r0, r1, r2, -, -, -, -, -, -, -, -, -, -, -, -, -, -, -, -, -, -, -, -⟩ := block_index t
  refine ⟨t, flush0_10 t, ?_⟩
  rw [mem_blk]
  intro a
  match a with
  | ⟨0, _⟩ => show win0_10.index t (0 : Fin 3) * 512 ≤ (i 0).val ∧ (i 0).val < win0_10.index t (0 : Fin 3) * 512 + 512; omega
  | ⟨1, _⟩ => show win0_10.index t (1 : Fin 3) * 32 ≤ (i 1).val ∧ (i 1).val < win0_10.index t (1 : Fin 3) * 32 + 32; omega
  | ⟨2, _⟩ => show win0_10.index t (2 : Fin 3) * 16 ≤ (i 2).val ∧ (i 2).val < win0_10.index t (2 : Fin 3) * 16 + 16; omega

/-- After the run the result array is the specification's result of the argument arrays. -/
theorem final (c : Dev nD) : (dats m 0 c).arrAt 10 cfg0.N = Gm m c :=
  (dats m 0 c).arrAt_eq_of_cover 10 (Gm m c) (fun t _ => flushed_eq m c t) covered

/-- The run, read: the result array at the specification's result of the arguments, the arguments unchanged. -/
theorem run : θ_run defs (onTc (τ := τ) (main (F := Ideal))) ⟨m, fun _ => 0, ρ⟩ fun r => ∀ c : Dev nD,
      r.2.mem ((c : Thread nD τ).loc main_v0) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.CommKer

end
-- ==== Proof.RefValue.lean ====
/-
  The reference's value, read stage by stage.

  Each stage of the reference is read at one index (sample B, agent n, feature j) and identified with the
  specification's stage applied to the sample of the stage before: the encoder is the clamped affine image of the
  sample's rows; what an agent hears is the column sum over the 32 agents less its own row, over 31 (the column sum's
  starting value is the zero word, which is 0); the joined row is the agent's own 64 features followed by the 64 it
  hears, so a contraction over the 128 joined features splits at 64; a communication round is the clamped affine
  image of the joined rows under that round's slab of weights and row of biases; the head is an affine layer after a
  clamped affine layer. The result at (B, n, a) selects the fill value where the mask word is 0 and the head's value
  elsewhere, which is the specification's masked value.
-/
import proofs.«123348_j83013127897258_2_alg».proof.Proof.Spec
import proofs.«123348_j83013127897258_2_alg».proof.Proof.Gen.ReferenceIdeal.Read

noncomputable section
namespace Cert.CommRef
open Idealize.ShloMosaic Idealize.ShloMosaic.ValueIdx Cert.ReferenceIdeal Cert.ReferenceIdeal.Read Cert.CommNet

/-- The encoder at sample `B`, agent `n`, feature `j`: the clamped affine image of that sample's rows. -/
theorem stage0 (x0 : (⟨S16384x32x64, .f32⟩ : BufTy).Contents (Elt Ideal)) (x1 : (⟨S64x64, .f32⟩ : BufTy).Contents (Elt Ideal))
    (x2 : (⟨S64, .f32⟩ : BufTy).Contents (Elt Ideal))
    (B : Fin 16384) (n : Fin 32) (j : Fin 64) :
    val_main_v4 (F := Ideal) x0 x1 x2 (ix3 B n j) = clamp (affine (sample x0 B) (mat x1) (vec x2)) n j := by
  rw [val_main_v4_apply, val_main_v3_apply, val_main_v0_apply, val_main_v2_apply, val_main_v1_apply,
    val_main_call0_v0_apply, val_main_call0_cst_apply]
  have e1 : ∀ k : Fin 64, lidx_main_v0 (ix3 B n j) k = ix3 B n k := fun k => funext fun a => Fin.ext (by
    match a with | ⟨0, _⟩ => rfl | ⟨1, _⟩ => rfl | ⟨2, _⟩ => rfl)
  have e2 : ∀ k : Fin 64, ridx_main_v0 (ix3 B n j) k = ix2 k j := fun k => funext fun a => Fin.ext (by
    match a with | ⟨0, _⟩ => rfl | ⟨1, _⟩ => rfl)
  have e3 : idx_main_v1 (idx_main_v2 (ix3 B n j)) = ix1 j := funext fun a => Fin.ext (by
    match a with | ⟨0, _⟩ => rfl)
  simp only [e1, e2, e3, clamp, affine, sample, mat, vec, Ideal.addf_def, Ideal.maximumf_def, Ideal.ofBits_def]

/-- What an agent hears after the encoder: the column sum of the sample's rows less its own row, over 31. -/
theorem heard0 (x0 : (⟨S16384x32x64, .f32⟩ : BufTy).Contents (Elt Ideal)) (x1 : (⟨S64x64, .f32⟩ : BufTy).Contents (Elt Ideal))
    (x2 : (⟨S64, .f32⟩ : BufTy).Contents (Elt Ideal))
    (B : Fin 16384) (n : Fin 32) (m : Fin 64) :
    val_main_v10 (F := Ideal) x0 x1 x2 (ix3 B n m) = heard (sample (val_main_v4 (F := Ideal) x0 x1 x2) B) n m := by
  rw [val_main_v10_apply, val_main_v8_apply, val_main_v7_apply, val_main_v6_apply, val_main_v5_apply,
    val_main_v9_apply, val_main_cst_0_apply, val_main_cst_apply]
  have e1 : ∀ k : Fin 32, idx_main_v5 (idx_main_v6 (idx_main_v7 (ix3 B n m))) k = ix3 B k m := fun k =>
    funext fun a => Fin.ext (by match a with | ⟨0, _⟩ => rfl | ⟨1, _⟩ => rfl | ⟨2, _⟩ => rfl)
  simp only [e1, heard, sample, Ideal.subf_def, Ideal.hostDivf_def, Ideal.ofBits_def, Ideal.ofBits_zero_f32, zero_add]

/-- The joined row after the encoder: the agent's own 64 features, then the 64 it hears. -/
theorem joined0 (x0 : (⟨S16384x32x64, .f32⟩ : BufTy).Contents (Elt Ideal)) (x1 : (⟨S64x64, .f32⟩ : BufTy).Contents (Elt Ideal))
    (x2 : (⟨S64, .f32⟩ : BufTy).Contents (Elt Ideal))
    (B : Fin 16384) (n : Fin 32) (k : Fin 128) :
    val_main_v11 (F := Ideal) x0 x1 x2 (ix3 B n k)
      = joined (sample (val_main_v4 (F := Ideal) x0 x1 x2) B) (heard (sample (val_main_v4 (F := Ideal) x0 x1 x2) B)) n k := by
  unfold val_main_v11 joined
  by_cases hk : k.val < 64
  · rw [dif_pos hk]
    exact concatenate_pair_apply_left (t := S16384x32x128) (s₁ := S16384x32x64) (s₂ := S16384x32x64) 2 _ _ _ (ix3 B n k) rfl (ix3 B n ⟨k.val, hk⟩) (fun b => by
      match b with | ⟨0, _⟩ => rfl | ⟨1, _⟩ => rfl | ⟨2, _⟩ => rfl)
  · rw [dif_neg hk]
    have hk2 : k.val - 64 < 64 := by have := k.isLt; omega
    refine (concatenate_pair_apply_right (t := S16384x32x128) (s₁ := S16384x32x64) (s₂ := S16384x32x64) 2 _ _ _ (ix3 B n k) rfl rfl (ix3 B n ⟨k.val - 64, hk2⟩) (fun b hb => by
      match b, hb with
      | ⟨0, _⟩, _ => rfl
      | ⟨1, _⟩, _ => rfl
      | ⟨2, _⟩, hb => exact absurd rfl hb) (by show k.val - 64 + 64 = k.val; omega)).trans ?_
    exact heard0 x0 x1 x2 B n ⟨k.val - 64, hk2⟩

/-- The first communication round at sample `B`, agent `n`, feature `j`. -/
theorem stage1 (x0 : (⟨S16384x32x64, .f32⟩ : BufTy).Contents (Elt Ideal)) (x1 : (⟨S64x64, .f32⟩ : BufTy).Contents (Elt Ideal))
    (x2 : (⟨S64, .f32⟩ : BufTy).Contents (Elt Ideal)) (x3 : (⟨S2x128x64, .f32⟩ : BufTy).Contents (Elt Ideal))
    (x4 : (⟨S2x64, .f32⟩ : BufTy).Contents (Elt Ideal))
    (B : Fin 16384) (n : Fin 32) (j : Fin 64) :
    val_main_v20 (F := Ideal) x0 x1 x2 x3 x4 (ix3 B n j)
      = round (sample (val_main_v4 (F := Ideal) x0 x1 x2) B) (slab x3 0) (row x4 0) n j := by
  rw [val_main_v20_apply, val_main_v19_apply, val_main_v14_apply, val_main_v18_apply, val_main_v17_apply,
    val_main_v16_apply, val_main_v15_apply, val_main_call1_v0_apply, val_main_call1_cst_apply]
  have e1 : ∀ k : Fin 128, lidx_main_v14 (ix3 B n j) k = ix3 B n k := fun k => funext fun a => Fin.ext (by match a with | ⟨0, _⟩ => rfl | ⟨1, _⟩ => rfl | ⟨2, _⟩ => rfl)
  have e2 : ∀ k : Fin 128, idx_main_v12 (idx_main_v13 (ridx_main_v14 (ix3 B n j) k)) = ix3 0 k j := fun k =>
    funext fun a => Fin.ext (by
      have hk := k.isLt; have hj := j.isLt
      match a with
      | ⟨0, _⟩ => rfl
      | ⟨1, _⟩ => show (k.val * 64 + j.val) / 64 % 128 = k.val; omega
      | ⟨2, _⟩ => show (k.val * 64 + j.val) % 64 = j.val; omega)
  have e3 : idx_main_v15 (idx_main_v16 (idx_main_v17 (idx_main_v18 (ix3 B n j)))) = ix2 0 j :=
    funext fun a => Fin.ext (by
      have hj := j.isLt
      match a with
      | ⟨0, _⟩ => rfl
      | ⟨1, _⟩ => show j.val % 64 = j.val; omega)
  simp only [val_main_v13_apply, val_main_v12_apply, e1, e2, e3, joined0, CommNet.round, clamp, affine, slab, row,
    Ideal.addf_def, Ideal.maximumf_def, Ideal.ofBits_def]

/-- What an agent hears after the first round: the column sum of the sample's rows less its own row, over 31. -/
theorem heard1 (x0 : (⟨S16384x32x64, .f32⟩ : BufTy).Contents (Elt Ideal)) (x1 : (⟨S64x64, .f32⟩ : BufTy).Contents (Elt Ideal))
    (x2 : (⟨S64, .f32⟩ : BufTy).Contents (Elt Ideal)) (x3 : (⟨S2x128x64, .f32⟩ : BufTy).Contents (Elt Ideal))
    (x4 : (⟨S2x64, .f32⟩ : BufTy).Contents (Elt Ideal))
    (B : Fin 16384) (n : Fin 32) (m : Fin 64) :
    val_main_v26 (F := Ideal) x0 x1 x2 x3 x4 (ix3 B n m)
      = heard (sample (val_main_v20 (F := Ideal) x0 x1 x2 x3 x4) B) n m := by
  rw [val_main_v26_apply, val_main_v24_apply, val_main_v23_apply, val_main_v22_apply, val_main_v21_apply,
    val_main_v25_apply, val_main_cst_2_apply, val_main_cst_1_apply]
  have e1 : ∀ k : Fin 32, idx_main_v21 (idx_main_v22 (idx_main_v23 (ix3 B n m))) k = ix3 B k m := fun k =>
    funext fun a => Fin.ext (by match a with | ⟨0, _⟩ => rfl | ⟨1, _⟩ => rfl | ⟨2, _⟩ => rfl)
  simp only [e1, heard, sample, Ideal.subf_def, Ideal.hostDivf_def, Ideal.ofBits_def, Ideal.ofBits_zero_f32, zero_add]

/-- The joined row after the first round: the agent's own 64 features, then the 64 it hears. -/
theorem joined1 (x0 : (⟨S16384x32x64, .f32⟩ : BufTy).Contents (Elt Ideal)) (x1 : (⟨S64x64, .f32⟩ : BufTy).Contents (Elt Ideal))
    (x2 : (⟨S64, .f32⟩ : BufTy).Contents (Elt Ideal)) (x3 : (⟨S2x128x64, .f32⟩ : BufTy).Contents (Elt Ideal))
    (x4 : (⟨S2x64, .f32⟩ : BufTy).Contents (Elt Ideal))
    (B : Fin 16384) (n : Fin 32) (k : Fin 128) :
    val_main_v27 (F := Ideal) x0 x1 x2 x3 x4 (ix3 B n k)
      = joined (sample (val_main_v20 (F := Ideal) x0 x1 x2 x3 x4) B)
          (heard (sample (val_main_v20 (F := Ideal) x0 x1 x2 x3 x4) B)) n k := by
  unfold val_main_v27 joined
  by_cases hk : k.val < 64
  · rw [dif_pos hk]
    exact concatenate_pair_apply_left (t := S16384x32x128) (s₁ := S16384x32x64) (s₂ := S16384x32x64) 2 _ _ _ (ix3 B n k) rfl (ix3 B n ⟨k.val, hk⟩) (fun b => by
      match b with | ⟨0, _⟩ => rfl | ⟨1, _⟩ => rfl | ⟨2, _⟩ => rfl)
  · rw [dif_neg hk]
    have hk2 : k.val - 64 < 64 := by have := k.isLt; omega
    refine (concatenate_pair_apply_right (t := S16384x32x128) (s₁ := S16384x32x64) (s₂ := S16384x32x64) 2 _ _ _ (ix3 B n k) rfl rfl (ix3 B n ⟨k.val - 64, hk2⟩) (fun b hb => by
      match b, hb with
      | ⟨0, _⟩, _ => rfl
      | ⟨1, _⟩, _ => rfl
      | ⟨2, _⟩, hb => exact absurd rfl hb) (by show k.val - 64 + 64 = k.val; omega)).trans ?_
    exact heard1 x0 x1 x2 x3 x4 B n ⟨k.val - 64, hk2⟩

/-- The second communication round at sample `B`, agent `n`, feature `j`. -/
theorem stage2 (x0 : (⟨S16384x32x64, .f32⟩ : BufTy).Contents (Elt Ideal)) (x1 : (⟨S64x64, .f32⟩ : BufTy).Contents (Elt Ideal))
    (x2 : (⟨S64, .f32⟩ : BufTy).Contents (Elt Ideal)) (x3 : (⟨S2x128x64, .f32⟩ : BufTy).Contents (Elt Ideal))
    (x4 : (⟨S2x64, .f32⟩ : BufTy).Contents (Elt Ideal))
    (B : Fin 16384) (n : Fin 32) (j : Fin 64) :
    val_main_v36 (F := Ideal) x0 x1 x2 x3 x4 (ix3 B n j)
      = round (sample (val_main_v20 (F := Ideal) x0 x1 x2 x3 x4) B) (slab x3 1) (row x4 1) n j := by
  rw [val_main_v36_apply, val_main_v35_apply, val_main_v30_apply, val_main_v34_apply, val_main_v33_apply,
    val_main_v32_apply, val_main_v31_apply, val_main_call2_v0_apply, val_main_call2_cst_apply]
  have e1 : ∀ k : Fin 128, lidx_main_v30 (ix3 B n j) k = ix3 B n k := fun k => funext fun a => Fin.ext (by match a with | ⟨0, _⟩ => rfl | ⟨1, _⟩ => rfl | ⟨2, _⟩ => rfl)
  have e2 : ∀ k : Fin 128, idx_main_v28 (idx_main_v29 (ridx_main_v30 (ix3 B n j) k)) = ix3 1 k j := fun k =>
    funext fun a => Fin.ext (by
      have hk := k.isLt; have hj := j.isLt
      match a with
      | ⟨0, _⟩ => rfl
      | ⟨1, _⟩ => show (k.val * 64 + j.val) / 64 % 128 = k.val; omega
      | ⟨2, _⟩ => show (k.val * 64 + j.val) % 64 = j.val; omega)
  have e3 : idx_main_v31 (idx_main_v32 (idx_main_v33 (idx_main_v34 (ix3 B n j)))) = ix2 1 j :=
    funext fun a => Fin.ext (by
      have hj := j.isLt
      match a with
      | ⟨0, _⟩ => rfl
      | ⟨1, _⟩ => show j.val % 64 = j.val; omega)
  simp only [val_main_v29_apply, val_main_v28_apply, e1, e2, e3, joined1, CommNet.round, clamp, affine, slab, row,
    Ideal.addf_def, Ideal.maximumf_def, Ideal.ofBits_def]

/-- The hidden layer at sample `B`, agent `n`, feature `k`: the clamped affine image of the second round's rows. -/
theorem hidden (x0 : (⟨S16384x32x64, .f32⟩ : BufTy).Contents (Elt Ideal)) (x1 : (⟨S64x64, .f32⟩ : BufTy).Contents (Elt Ideal))
    (x2 : (⟨S64, .f32⟩ : BufTy).Contents (Elt Ideal)) (x3 : (⟨S2x128x64, .f32⟩ : BufTy).Contents (Elt Ideal))
    (x4 : (⟨S2x64, .f32⟩ : BufTy).Contents (Elt Ideal)) (x5 : (⟨S64x64, .f32⟩ : BufTy).Contents (Elt Ideal))
    (x6 : (⟨S64, .f32⟩ : BufTy).Contents (Elt Ideal))
    (B : Fin 16384) (n : Fin 32) (k : Fin 64) :
    val_main_v41 (F := Ideal) x0 x1 x2 x3 x4 x5 x6 (ix3 B n k)
      = clamp (affine (sample (val_main_v36 (F := Ideal) x0 x1 x2 x3 x4) B) (mat x5) (vec x6)) n k := by
  rw [val_main_v41_apply, val_main_v40_apply, val_main_v37_apply, val_main_v39_apply, val_main_v38_apply,
    val_main_call3_v0_apply, val_main_call3_cst_apply]
  have e1 : ∀ c : Fin 64, lidx_main_v37 (ix3 B n k) c = ix3 B n c := fun c => funext fun a => Fin.ext (by match a with | ⟨0, _⟩ => rfl | ⟨1, _⟩ => rfl | ⟨2, _⟩ => rfl)
  have e2 : ∀ c : Fin 64, ridx_main_v37 (ix3 B n k) c = ix2 c k := fun c => funext fun a => Fin.ext (by
    match a with | ⟨0, _⟩ => rfl | ⟨1, _⟩ => rfl)
  have e3 : idx_main_v38 (idx_main_v39 (ix3 B n k)) = ix1 k := funext fun a => Fin.ext (by
    match a with | ⟨0, _⟩ => rfl)
  simp only [e1, e2, e3, clamp, affine, sample, mat, vec, Ideal.addf_def, Ideal.maximumf_def, Ideal.ofBits_def]

/-- The two-layer head at sample `B`, agent `n`, action `a`. -/
theorem stage3 (x0 : (⟨S16384x32x64, .f32⟩ : BufTy).Contents (Elt Ideal)) (x1 : (⟨S64x64, .f32⟩ : BufTy).Contents (Elt Ideal))
    (x2 : (⟨S64, .f32⟩ : BufTy).Contents (Elt Ideal)) (x3 : (⟨S2x128x64, .f32⟩ : BufTy).Contents (Elt Ideal))
    (x4 : (⟨S2x64, .f32⟩ : BufTy).Contents (Elt Ideal)) (x5 : (⟨S64x64, .f32⟩ : BufTy).Contents (Elt Ideal))
    (x6 : (⟨S64, .f32⟩ : BufTy).Contents (Elt Ideal)) (x7 : (⟨S64x16, .f32⟩ : BufTy).Contents (Elt Ideal))
    (x8 : (⟨S16, .f32⟩ : BufTy).Contents (Elt Ideal))
    (B : Fin 16384) (n : Fin 32) (a : Fin 16) :
    val_main_v45 (F := Ideal) x0 x1 x2 x3 x4 x5 x6 x7 x8 (ix3 B n a)
      = head (sample (val_main_v36 (F := Ideal) x0 x1 x2 x3 x4) B) (mat x5) (vec x6) (mat x7) (vec x8) n a := by
  rw [val_main_v45_apply, val_main_v42_apply, val_main_v44_apply, val_main_v43_apply]
  have e1 : ∀ c : Fin 64, lidx_main_v42 (ix3 B n a) c = ix3 B n c := fun c => funext fun d => Fin.ext (by
    match d with | ⟨0, _⟩ => rfl | ⟨1, _⟩ => rfl | ⟨2, _⟩ => rfl)
  have e2 : ∀ c : Fin 64, ridx_main_v42 (ix3 B n a) c = ix2 c a := fun c => funext fun d => Fin.ext (by
    match d with | ⟨0, _⟩ => rfl | ⟨1, _⟩ => rfl)
  have e3 : idx_main_v43 (idx_main_v44 (ix3 B n a)) = ix1 a := funext fun d => Fin.ext (by
    match d with | ⟨0, _⟩ => rfl)
  simp only [e1, e2, e3, hidden, head, affine, mat, vec, Ideal.addf_def]

/-- The reference's result is the specification's: at every (sample, agent, action) the masked action value of the
    sample, each stage's sample being the specification's stage applied to the stage before. -/
theorem ref_eq (x0 : (⟨S16384x32x64, .f32⟩ : BufTy).Contents (Elt Ideal)) (x1 : (⟨S64x64, .f32⟩ : BufTy).Contents (Elt Ideal))
    (x2 : (⟨S64, .f32⟩ : BufTy).Contents (Elt Ideal)) (x3 : (⟨S2x128x64, .f32⟩ : BufTy).Contents (Elt Ideal))
    (x4 : (⟨S2x64, .f32⟩ : BufTy).Contents (Elt Ideal)) (x5 : (⟨S64x64, .f32⟩ : BufTy).Contents (Elt Ideal))
    (x6 : (⟨S64, .f32⟩ : BufTy).Contents (Elt Ideal)) (x7 : (⟨S64x16, .f32⟩ : BufTy).Contents (Elt Ideal))
    (x8 : (⟨S16, .f32⟩ : BufTy).Contents (Elt Ideal)) (x9 : (⟨S16384x32x16, .i32⟩ : BufTy).Contents (Elt Ideal)) :
    val_main_v48 (F := Ideal) x0 x1 x2 x3 x4 x5 x6 x7 x8 x9 = G x0 x1 x2 x3 x4 x5 x6 x7 x8 x9 := by
  funext i
  obtain ⟨B, n, a, rfl⟩ : ∃ (B : Fin 16384) (n : Fin 32) (a : Fin 16), i = ix3 B n a := ⟨i 0, i 1, i 2, eq_ix3 i⟩
  have h0 : sample (val_main_v4 (F := Ideal) x0 x1 x2) B = clamp (affine (sample x0 B) (mat x1) (vec x2)) :=
    funext fun n => funext fun j => stage0 x0 x1 x2 B n j
  have h1 : sample (val_main_v20 (F := Ideal) x0 x1 x2 x3 x4) B
      = CommNet.round (sample (val_main_v4 (F := Ideal) x0 x1 x2) B) (slab x3 0) (row x4 0) :=
    funext fun n => funext fun j => stage1 x0 x1 x2 x3 x4 B n j
  have h2 : sample (val_main_v36 (F := Ideal) x0 x1 x2 x3 x4) B
      = CommNet.round (sample (val_main_v20 (F := Ideal) x0 x1 x2 x3 x4) B) (slab x3 1) (row x4 1) :=
    funext fun n => funext fun j => stage2 x0 x1 x2 x3 x4 B n j
  rw [val_main_v48_apply, val_main_v47_apply, val_main_v46_apply, val_main_c_apply, val_main_call4_v0_apply,
    val_main_cst_3_apply, stage3, h2, h1, h0]
  rfl

end Cert.CommRef
end
-- ==== Proof.lean ====
/- The proof of `Cert.Claim` for the CommNet kernel against its jnp reference.

   Both programs compute, for each of 16384 samples of 32 agents, the same network on the extended reals (Proof/Spec.lean:
   encode, two communication rounds in which every agent receives the mean of the other 31 agents' features, a two-layer
   head, and the fill value at unavailable actions). The kernel does it 512 samples at a time with the agents flattened
   into rows for its matrix products; the reference does it on the whole [16384, 32, ·] arrays. At the exact instance a
   change of float format is the identity, a matrix product into the zero accumulator and the host's `dot_general` are
   the same sum over the contracted axis, and the lane sum and the host's sum from zero are the same sum over the agents —
   so both sides are the specification's function `G` of the argument arrays, index by index, with the same three
   constant words, and no law of the extended reals beyond `0 + x = x` is used: the precondition is never opened.

   Kernel side: Proof/KerOps.lean (each non-entrywise operation read at an index), Proof/KerStages.lean (the body's four
   stages, one sample at a time), Proof/KerBlock.lean (what one grid point leaves in the output window's buffer),
   Proof/KerValue.lean (the 32 blocks cover the result array, so after the run it is `G` of the arguments).
   Reference side: Proof/RefValue.lean (the reference's term is `G` of its arguments).
   The three frames are the generated frame runs; the idealization rewrote nothing, so `preserves` is `True`. -/
import proofs.«123348_j83013127897258_2_alg».proof.Defs
import proofs.«123348_j83013127897258_2_alg».proof.Proof.Gen.Kernel
import proofs.«123348_j83013127897258_2_alg».proof.Proof.Gen.Kernel.Skeleton
import proofs.«123348_j83013127897258_2_alg».proof.Proof.Gen.Kernel.Launch
import proofs.«123348_j83013127897258_2_alg».proof.Proof.Gen.Kernel.Points
import proofs.«123348_j83013127897258_2_alg».proof.Proof.Gen.Kernel.Frame
import proofs.«123348_j83013127897258_2_alg».proof.Proof.Gen.KernelIdeal
import proofs.«123348_j83013127897258_2_alg».proof.Proof.Gen.KernelIdeal.Skeleton
import proofs.«123348_j83013127897258_2_alg».proof.Proof.Gen.KernelIdeal.Launch
import proofs.«123348_j83013127897258_2_alg».proof.Proof.Gen.KernelIdeal.Points
import proofs.«123348_j83013127897258_2_alg».proof.Proof.Gen.KernelIdeal.Frame
import proofs.«123348_j83013127897258_2_alg».proof.Proof.Gen.ReferenceIdeal
import proofs.«123348_j83013127897258_2_alg».proof.Proof.Gen.Pre_finite_inputs
import proofs.«123348_j83013127897258_2_alg».proof.Proof.Gen.KernelIdeal.Value
import proofs.«123348_j83013127897258_2_alg».proof.Proof.Gen.ReferenceIdeal.Run
import proofs.«123348_j83013127897258_2_alg».proof.Proof.Gen.ReferenceIdeal.Read
import proofs.«123348_j83013127897258_2_alg».proof.Proof.KerValue
import proofs.«123348_j83013127897258_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged: its generated frame run. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference has no kernel: its frame is its generated run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array ends at the specification's `G` of its arguments
    (the blocks-to-array leg) and the reference's at `G` of its own (its run, read stage by stage): the same array. -/
theorem algebraic : Cert.algebraic_KernelIdeal_ReferenceIdeal := by
  intro m ρ m' ρ' _ hagree
  refine ⟨fun c => Cert.CommKer.Gm m c, Cert.CommKer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.CommRef.ref_eq]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
